-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn {F : FTy → Type} [FloatOps F] (main_arg0 : FVec F S50000x128 .f32) (main_arg1 : IVec S2x800000 32) (main_arg2 : FVec F S2x128x128 .f32) (main_arg3 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x128x128 .f32 := Host.absf main_arg2
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128x128 : Shape := ⟨3, ![1, 128, 128]⟩
abbrev S128x128 : Shape := ⟨2, ![128, 128]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S128 : Shape := ⟨1, ![128]⟩

abbrev nBuf : Space → Nat
  | .hbm => 63
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x128x128, .f32⟩
  | .hbm, ⟨3, _⟩ => ⟨S2x128, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S1x128x128, .f32⟩
  | .hbm, ⟨20, _⟩ => ⟨S128x128, .f32⟩
  | .hbm, ⟨21, _⟩ => ⟨S128x128, .bf16⟩
  | .hbm, ⟨22, _⟩ => ⟨S50000x128, .bf16⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000x128, .bf16⟩
  | .hbm, ⟨32, _⟩ => ⟨S850000x128, .f32⟩
  | .hbm, ⟨33, _⟩ => ⟨S_, .f32⟩
  | .hbm, ⟨34, _⟩ => ⟨S50000x128, .f32⟩
  | .hbm, ⟨35, _⟩ => ⟨S850000x1, .i32⟩
  | .hbm, ⟨36, _⟩ => ⟨S50000x128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S50000x128, .f32⟩
  | .hbm, ⟨41, _⟩ => ⟨S1x128x128, .f32⟩
  | .hbm, ⟨42, _⟩ => ⟨S128x128, .f32⟩
  | .hbm, ⟨43, _⟩ => ⟨S128x128, .bf16⟩
  | .hbm, ⟨44, _⟩ => ⟨S50000x128, .bf16⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .bf16⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S128, .f32⟩
  | .hbm, ⟨61, _⟩ => ⟨S1x128, .f32⟩
  | .hbm, ⟨62, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .bf16⟩
  | .local _ .vmem, ⟨17, _⟩ => ⟨S5000x1, .f32⟩
  | .local _ .vmem, ⟨18, _⟩ => ⟨S5000x1, .f32⟩
  | .local _ .vmem, ⟨19, _⟩ => ⟨S5000x128, .bf16⟩
  | .local _ .vmem, ⟨20, _⟩ => ⟨S5000x128, .bf16⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  slices_S2x128x128_S1x128x128_0_0_0 : S2x128x128.Slices ![0, 0, 0] S1x128x128
  shapeCasts_S1x128x128_S128x128 : S1x128x128.ShapeCasts S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  slices_S2x128x128_S1x128x128_1_0_0 : S2x128x128.Slices ![1, 0, 0] S1x128x128
  slices_S2x128_S1x128_1_0 : S2x128.Slices ![1, 0] S1x128
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .bf16 = 32 ∨ (Rect.block (s := S50000x128) S5000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v50) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S128x128 : Shape := ⟨2, ![128, 128]⟩
abbrev S850000x128 : Shape := ⟨2, ![850000, 128]⟩
abbrev S1x128 : Shape := ⟨2, ![1, 128]⟩
abbrev S128 : Shape := ⟨1, ![128]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x128x128, .f32⟩
  | .hbm, ⟨3, _⟩ => ⟨S2x128, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S50000, .f32⟩
  | .hbm, ⟨18, _⟩ => ⟨S_, .i32⟩
  | .hbm, ⟨19, _⟩ => ⟨S850000, .i32⟩
  | .hbm, ⟨20, _⟩ => ⟨S850000, .i1⟩
  | .hbm, ⟨21, _⟩ => ⟨S_, .i32⟩
  | .hbm, ⟨22, _⟩ => ⟨S850000, .i32⟩
  | .hbm, ⟨23, _⟩ => ⟨S850000, .i32⟩
  | .hbm, ⟨24, _⟩ => ⟨S850000, .i32⟩
  | .hbm, ⟨25, _⟩ => ⟨S850000x1, .i32⟩
  | .hbm, ⟨26, _⟩ => ⟨S850000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S850000x1, .f32⟩
  | .hbm, ⟨38, _⟩ => ⟨S1x128x128, .f32⟩
  | .hbm, ⟨39, _⟩ => ⟨S128x128, .f32⟩
  | .hbm, ⟨40, _⟩ => ⟨S50000x128, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000x128, .f32⟩
  | .hbm, ⟨50, _⟩ => ⟨S850000x128, .f32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S1x128x128, .f32⟩
  | .hbm, ⟨65, _⟩ => ⟨S128x128, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_cst : Ref sig .tc := ⟨.hbm, 61, rfl⟩
abbrev main_call0_v0 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_7 : Ref sig .tc := ⟨.hbm, 67, rfl⟩
abbrev main_v52 : Ref sig .tc := ⟨.hbm, 68, rfl⟩
abbrev main_v53 : Ref sig .tc := ⟨.hbm, 69, rfl⟩
abbrev main_c_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_call1_cst : Ref sig .tc := ⟨.hbm, 87, rfl⟩
abbrev main_call1_v0 : Ref sig .tc := ⟨.hbm, 88, rfl⟩
abbrev main_v69 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S2x128x128_S1x128x128_0_0_0 : S2x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x128_S1x128x128_1_0_0 : S2x128x128.Slices ![1, 0, 0] S1x128x128
  slices_S2x128_S1x128_1_0 : S2x128.Slices ![1, 0] S1x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KRun.lean ====
/-
  The kernel's run with its result array named.

  The kernel's entry point is four grid launches among stretches of host operations.  Its run ends with every buffer of
  the device at the contents the last boundary of that chain names; in particular the result buffer — the output
  array of the fourth launch — holds what that launch's write-backs leave, and the four argument arrays hold what
  they were launched with.
-/
import proofs.«128690_j43903155699851_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's entry point terminates without a fault; the result buffer ends at the
    fourth launch's output array after all its write-backs, and the argument arrays end as launched. -/
theorem run_out : θ_run defs (onTc (τ := τ) (main (F := F))) ⟨m, fun _ => 0, ρ⟩ (fun r => ∀ c : Dev nD,
      r.2.mem ((c.tc : Thread nD τ).loc main_v50) = (dat3 (V7 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v50 (by decide))).trans (W8_arr m ρ c 3),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.RunValue

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.KPay.lean ====
/-
  The two kernel bodies as arithmetic on extended reals, one entry at a time.

  The product body computes, for a block of rows `x`, a weight matrix `w` and a column `d` of one factor per row,
  the entry (p, q) as `(∑ k, x (p, k) * w (k, q)) * d (p, 0)`: a change of float format is the identity, the
  product into a zero accumulator is the row-by-column sum, and the column is repeated along each row.  The
  rectifier body computes `max (d (p, 0) * a (p, q) + b (0, q)) 0` from a block `a`, a bias row `b` and the same
  column.  The bodies of the second layer are the same arithmetic.
-/
import proofs.«128690_j43903155699851_2_alg».proof.Proof.Gen.KernelIdeal.Skeleton
import proofs.«128690_j43903155699851_2_alg».proof.Proof.LibDense
import proofs.«128690_j43903155699851_2_alg».proof.Proof.LibBiasRows
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- A column `[n, 1]` repeated along each of `d` columns, at entry (p, q), is the column at (p, 0). -/
theorem col_broadcast {n d : ℕ} (hn : n ≠ 1) {α : Type} (x : (⟨2, ![n, 1]⟩ : Shape).Idx → α)
    (h : (⟨2, ![n, 1]⟩ : Shape).Broadcasts ⟨2, ![n, d]⟩) (p : Fin n) (q : Fin d) :
    broadcastTo ⟨2, ![n, d]⟩ x h (ix2 p q) = x (ix2 p (0 : Fin 1)) := by
  refine broadcastTo_apply x h (ix2 p q) (ix2 p (0 : Fin 1)) (fun a => ?_)
  match a with
  | ⟨0, _⟩ =>
    show p.val = if n = 1 then 0 else p.val
    rw [if_neg hn]
  | ⟨1, _⟩ => exact (if_pos rfl).symm

/-- The product body of the first layer at an entry. -/
theorem pay_mm0 (x0 : Vec Ideal S5000x128 .f32) (x1 : Vec Ideal S128x128 .bf16) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [shapeCast_self, shapeCast_self, shapeCast_self]
  show (matmul (F := Ideal) dot_S5000x128_S128x128_S5000x128_1_0_0_1_n_n none x0 x1 (constant (F := Ideal) S5000x128 .f32 0x00000000#32)) (ix2 p q)
      * (broadcastTo S5000x128 x2 broadcasts_S5000x1_S5000x128 (ix2 p q)) = _
  refine congrArg₂ (· * ·) ?_ ?_
  · exact Cert.LibDense.matmul_plain (M := 5000) (K := 128) (N := 128) x0 x1 (ix2 p q)
  · exact col_broadcast (by decide) x2 broadcasts_S5000x1_S5000x128 p q

/-- The product body of the second layer at an entry: the same arithmetic. -/
theorem pay_mm2 (x0 : Vec Ideal S5000x128 .f32) (x1 : Vec Ideal S128x128 .bf16) (x2 : Vec Ideal S5000x1 .f32)
    (p : Fin 5000) (q : Fin 128) :
    k2_pay1 (F := Ideal) x0 x1 x2 (ix2 p q) = (∑ k : Fin 128, x0 (ix2 p k) * x1 (ix2 k q)) * x2 (ix2 p (0 : Fin 1)) := by
  unfold k2_pay1
  rw [shapeCast_self, shapeCast_self, shapeCast_self, shapeCast_self]
  show (matmul (F := Ideal) dot_S5000x128_S128x128_S5000x128_1_0_0_1_n_n none x0 x1 (constant (F := Ideal) S5000x128 .f32 0x00000000#32)) (ix2 p q)
      * (broadcastTo S5000x128 x2 broadcasts_S5000x1_S5000x128 (ix2 p q)) = _
  refine congrArg₂ (· * ·) ?_ ?_
  · exact Cert.LibDense.matmul_plain (M := 5000) (K := 128) (N := 128) x0 x1 (ix2 p q)
  · exact col_broadcast (by decide) x2 broadcasts_S5000x1_S5000x128 p q

/-- The rectifier body of the first layer at an entry. -/
theorem pay_br1 (x2 : Vec Ideal S5000x1 .f32) (x1 : Vec Ideal S1x128 .f32) (x0 : Vec Ideal S5000x128 .f32)
    (p : Fin 5000) (q : Fin 128) :
    k1_pay1 (F := Ideal) x2 x1 x0 (ix2 p q)
      = max (x2 (ix2 p (0 : Fin 1)) * x0 (ix2 p q) + x1 (ix2 (0 : Fin 1) q)) (Ideal.ofBits .f32 0x00000000#32) := by
  unfold k1_pay1
  rw [shapeCast_self, shapeCast_self, shapeCast_self, shapeCast_self, shapeCast_self]
  show max (broadcastTo S5000x128 x2 broadcasts_S5000x1_S5000x128 (ix2 p q) * x0 (ix2 p q)
      + broadcastTo S5000x128 x1 broadcasts_S1x128_S5000x128 (ix2 p q)) _ = _
  rw [col_broadcast (by decide) x2 broadcasts_S5000x1_S5000x128 p q,
    Cert.LibBiasRows.row_broadcast (n := 5000) (d := 128) x1 broadcasts_S1x128_S5000x128 (ix2 p q)]
  rfl

/-- The rectifier body of the second layer at an entry: the same arithmetic. -/
theorem pay_br3 (x2 : Vec Ideal S5000x1 .f32) (x1 : Vec Ideal S1x128 .f32) (x0 : Vec Ideal S5000x128 .f32)
    (p : Fin 5000) (q : Fin 128) :
    k3_pay1 (F := Ideal) x2 x1 x0 (ix2 p q)
      = max (x2 (ix2 p (0 : Fin 1)) * x0 (ix2 p q) + x1 (ix2 (0 : Fin 1) q)) (Ideal.ofBits .f32 0x00000000#32) := by
  unfold k3_pay1
  rw [shapeCast_self, shapeCast_self, shapeCast_self, shapeCast_self, shapeCast_self]
  show max (broadcastTo S5000x128 x2 broadcasts_S5000x1_S5000x128 (ix2 p q) * x0 (ix2 p q)
      + broadcastTo S5000x128 x1 broadcasts_S1x128_S5000x128 (ix2 p q)) _ = _
  rw [col_broadcast (by decide) x2 broadcasts_S5000x1_S5000x128 p q,
    Cert.LibBiasRows.row_broadcast (n := 5000) (d := 128) x1 broadcasts_S1x128_S5000x128 (ix2 p q)]
  rfl

end Cert.KernelIdeal.Pay

end
-- ==== Proof.KLaunchDefs.lean ====
/-
  The four launches, each as one whole-array function of the arrays it finds.

  Every launch runs over ten blocks of 5000 rows.  At point `t` the row operands' blocks are rows `5000 t … 5000 t + 4999`,
  the small operand (a weight matrix or a bias row) is whole, and the output block is the same rows.  An entry of a
  block's result depends only on its own row of the row operands, so what point `t` writes back is block `t` of ONE
  array function of the whole operands, and the ten blocks tile the output.  For the product launches that function is
  `(x · w) (r, q) * d (r, 0)`; for the rectifier launches `max (d (r, 0) * a (r, q) + b (0, q)) 0`.
-/
import proofs.«128690_j43903155699851_2_alg».proof.Proof.Gen.KernelIdeal.Frame
import Idealize.ShloMosaic.Lib.ValueIdx
import Idealize.ShloMosaic.Lib.Pipeline.Value

set_option maxRecDepth 16384

noncomputable section

namespace Cert.KernelIdeal.Launches

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Row `p` of block `t` is row `5000 t + p` of the array. -/
def rowOfBlock (t : Fin 10) (p : Fin 5000) : Fin 50000 := ⟨t.val * 5000 + p.val, by have := t.isLt; have := p.isLt; omega⟩

/-- The product array: entry (r, q) is `(∑ k, x (r, k) * w (k, q)) * d (r, 0)`. -/
def mmAt (x : S50000x128.Idx → EReal) (w : S128x128.Idx → EReal) (d : S50000x1.Idx → EReal) (r : Fin 50000) (q : Fin 128) : EReal :=
  (∑ k : Fin 128, x (ix2 r k) * w (ix2 k q)) * d (ix2 r (0 : Fin 1))
def mmArr (x : S50000x128.Idx → EReal) (w : S128x128.Idx → EReal) (d : S50000x1.Idx → EReal) : S50000x128.Idx → EReal :=
  fun i => mmAt x w d (i 0) (i 1)

/-- The rectifier array: entry (r, q) is `max (d (r, 0) * a (r, q) + b (0, q)) 0`. -/
def brAt (a : S50000x128.Idx → EReal) (b : S1x128.Idx → EReal) (d : S50000x1.Idx → EReal) (r : Fin 50000) (q : Fin 128) : EReal :=
  max (d (ix2 r (0 : Fin 1)) * a (ix2 r q) + b (ix2 (0 : Fin 1) q)) (Ideal.ofBits .f32 0x00000000#32)
def brArr (a : S50000x128.Idx → EReal) (b : S1x128.Idx → EReal) (d : S50000x1.Idx → EReal) : S50000x128.Idx → EReal :=
  fun i => brAt a b d (i 0) (i 1)

theorem hz : (![0, 0] : Fin 2 → Nat) = fun _ => 0 := funext fun a => by fin_cases a <;> rfl

end Cert.KernelIdeal.Launches

end
-- ==== Proof.KLaunch0.lean ====
/-
  The first product launch: whatever arrays it finds, its output array ends as the product array
  `(x · w) (r, q) * d (r, 0)` of them — block `t` of that array is what point `t` writes back, and the ten blocks tile it.
-/
import proofs.«128690_j43903155699851_2_alg».proof.Proof.Gen.KernelIdeal.Frame
import proofs.«128690_j43903155699851_2_alg».proof.Proof.KPay
import proofs.«128690_j43903155699851_2_alg».proof.Proof.KLaunchDefs
import Idealize.ShloMosaic.Lib.ValueIdx
import Idealize.ShloMosaic.Lib.Pipeline.Value

set_option maxRecDepth 16384

noncomputable section

namespace Cert.KernelIdeal.Launches

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Launch 0: the product `(x · w) * d` on row blocks -/

section Launch0

/-- The printed index maps of launch 0, decided over its ten grid points: the row blocks move with the point, the
    weight block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 10 :=
  (by decide +kernel : ∀ t : Fin grid0.N, _)

/-- What point `t` writes back is block `t` of the product array of the arrays the launch finds. -/
theorem flushed0_eq (c : Dev nD) (t : Fin cfg0.N) :
    (dat0 V c).flushed 3 t = ((cfg0.win 3).blk t).view.read (Elt Ideal)
      (mmArr (V c main_arg0) (V c main_v15) (V c main_v12)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e00, e01, e10, e11, e20, e21, e30, e31, ht⟩ := idx_facts0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = mmArr (V c main_arg0) (V c main_v15) (V c main_v12) (((cfg0.win 3).blk t).view.emb (ix2 p q))
  refine (Cert.KernelIdeal.Pay.pay_mm0 _ _ _ p q).trans ?_
  have h3 : ((cfg0.win 3).blk t).view.emb (ix2 p q) = ix2 (rowOfBlock ⟨t.val, ht⟩ p) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  have h0 : ∀ k : Fin 128, iblk0 V c 0 t (ix2 p k) = V c main_arg0 (ix2 (rowOfBlock ⟨t.val, ht⟩ p) k) := fun k => by
    show V c main_arg0 (((cfg0.win 0).blk t).view.emb (ix2 p k)) = V c main_arg0 (ix2 (rowOfBlock ⟨t.val, ht⟩ p) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, iblk0 V c 1 t (ix2 k q) = V c main_v15 (ix2 k q) := fun k => by
    show V c main_v15 (((cfg0.win 1).blk t).view.emb (ix2 k q)) = V c main_v15 (ix2 k q)
    refine congrArg (V c main_v15) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  have h2 : iblk0 V c 2 t (ix2 p (0 : Fin 1)) = V c main_v12 (ix2 (rowOfBlock ⟨t.val, ht⟩ p) (0 : Fin 1)) := by
    show V c main_v12 (((cfg0.win 2).blk t).view.emb (ix2 p (0 : Fin 1))) = V c main_v12 (ix2 (rowOfBlock ⟨t.val, ht⟩ p) (0 : Fin 1))
    refine congrArg (V c main_v12) (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  rw [h3, h2]
  show _ = mmAt (V c main_arg0) (V c main_v15) (V c main_v12) (rowOfBlock ⟨t.val, ht⟩ p) q
  unfold mmAt
  exact congrArg (· * _) (Finset.sum_congr rfl fun k _ => by rw [h0 k, h1 k])

/-- An index of the output array is in point `t`'s block iff its coordinates are in the block's ranges. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Row `r` of the output array is in the block of point `r / 5000`: the ten blocks tile the array. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, by show (i 0).val / 5000 < grid0.N; rw [N_0]; omega⟩
  obtain ⟨-, -, -, -, -, -, e30, e31, -⟩ := idx_facts0 t
  have tv : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After launch 0 its output array is the product array of the arrays it found. -/
theorem final0 (c : Dev nD) : (dat0 V c).arrAt 3 cfg0.N = mmArr (V c main_arg0) (V c main_v15) (V c main_v12) :=
  (dat0 V c).arrAt_eq_of_cover 3 _ (fun t _ => flushed0_eq V c t) (cover0)

end Launch0

end Cert.KernelIdeal.Launches

end
-- ==== Proof.KLaunch1.lean ====
/-
  The first rectifier launch: whatever arrays it finds, its output array ends as the rectifier array
  `max (d (r, 0) * a (r, q) + b (0, q)) 0` of them — block `t` of that array is what point `t` writes back, and the ten blocks tile it.
-/
import proofs.«128690_j43903155699851_2_alg».proof.Proof.Gen.KernelIdeal.Frame
import proofs.«128690_j43903155699851_2_alg».proof.Proof.KPay
import proofs.«128690_j43903155699851_2_alg».proof.Proof.KLaunchDefs
import Idealize.ShloMosaic.Lib.ValueIdx
import Idealize.ShloMosaic.Lib.Pipeline.Value

set_option maxRecDepth 16384

noncomputable section

namespace Cert.KernelIdeal.Launches

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Launch 1: the rectifier `max (d * a + b) 0` on row blocks -/

section Launch1

/-- The printed index maps of launch 1, decided over its ten grid points: the row blocks move with the point, the
    bias row stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 ∧ t.val < 10 :=
  (by decide +kernel : ∀ t : Fin grid1.N, _)

/-- What point `t` writes back is block `t` of the rectifier array of the arrays the launch finds. -/
theorem flushed1_eq (c : Dev nD) (t : Fin cfg1.N) :
    (dat1 V c).flushed 3 t = ((cfg1.win 3).blk t).view.read (Elt Ideal)
      (brArr (V c main_v27) (V c main_v30) (V c main_v12)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S5000x1) hz]
  obtain ⟨e00, e01, e10, e11, e20, e21, e30, e31, ht⟩ := idx_facts1 t
  funext j
  obtain ⟨p, q, rfl⟩ : ∃ (p : Fin 5000) (q : Fin 128), j = ix2 p q := ⟨j 0, j 1, eq_ix2 j⟩
  show k1_pay1 (F := Ideal) (iblk1 V c 2 t) (iblk1 V c 1 t) (iblk1 V c 0 t) (ix2 p q)
    = brArr (V c main_v27) (V c main_v30) (V c main_v12) (((cfg1.win 3).blk t).view.emb (ix2 p q))
  refine (Cert.KernelIdeal.Pay.pay_br1 _ _ _ p q).trans ?_
  have h3 : ((cfg1.win 3).blk t).view.emb (ix2 p q) = ix2 (rowOfBlock ⟨t.val, ht⟩ p) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  have h0 : iblk1 V c 0 t (ix2 p q) = V c main_v27 (ix2 (rowOfBlock ⟨t.val, ht⟩ p) q) := by
    show V c main_v27 (((cfg1.win 0).blk t).view.emb (ix2 p q)) = V c main_v27 (ix2 (rowOfBlock ⟨t.val, ht⟩ p) q)
    refine congrArg (V c main_v27) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : iblk1 V c 1 t (ix2 (0 : Fin 1) q) = V c main_v30 (ix2 (0 : Fin 1) q) := by
    show V c main_v30 (((cfg1.win 1).blk t).view.emb (ix2 (0 : Fin 1) q)) = V c main_v30 (ix2 (0 : Fin 1) q)
    refine congrArg (V c main_v30) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  have h2 : iblk1 V c 2 t (ix2 p (0 : Fin 1)) = V c main_v12 (ix2 (rowOfBlock ⟨t.val, ht⟩ p) (0 : Fin 1)) := by
    show V c main_v12 (((cfg1.win 2).blk t).view.emb (ix2 p (0 : Fin 1))) = V c main_v12 (ix2 (rowOfBlock ⟨t.val, ht⟩ p) (0 : Fin 1))
    refine congrArg (V c main_v12) (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  rw [h3, h0, h1, h2]
  rfl

/-- An index of the output array is in point `t`'s block iff its coordinates are in the block's ranges. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v31).slice (win1_3.rect t)).set ↔ _
  rw [View.set_slice_whole, Rect.mem_set_unit]
  exact Iff.rfl

/-- Row `r` of the output array is in the block of point `r / 5000`: the ten blocks tile the array. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  let t : Fin cfg1.N := ⟨(i 0).val / 5000, by show (i 0).val / 5000 < grid1.N; rw [N_1]; omega⟩
  obtain ⟨-, -, -, -, -, -, e30, e31, -⟩ := idx_facts1 t
  have tv : t.val = (i 0).val / 5000 := rfl
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After launch 1 its output array is the rectifier array of the arrays it found. -/
theorem final1 (c : Dev nD) : (dat1 V c).arrAt 3 cfg1.N = brArr (V c main_v27) (V c main_v30) (V c main_v12) :=
  (dat1 V c).arrAt_eq_of_cover 3 _ (fun t _ => flushed1_eq V c t) (cover1)

end Launch1

end Cert.KernelIdeal.Launches

end
-- ==== Proof.KLaunch2.lean ====
/-
  The second product launch: whatever arrays it finds, its output array ends as the product array
  `(x · w) (r, q) * d (r, 0)` of them — block `t` of that array is what point `t` writes back, and the ten blocks tile it.
-/
import proofs.«128690_j43903155699851_2_alg».proof.Proof.Gen.KernelIdeal.Frame
import proofs.«128690_j43903155699851_2_alg».proof.Proof.KPay
import proofs.«128690_j43903155699851_2_alg».proof.Proof.KLaunchDefs
import Idealize.ShloMosaic.Lib.ValueIdx
import Idealize.ShloMosaic.Lib.Pipeline.Value

set_option maxRecDepth 16384

noncomputable section

namespace Cert.KernelIdeal.Launches

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Launch 2: the product `(x · w) * d` on row blocks -/

section Launch2

/-- The printed index maps of launch 2, decided over its ten grid points: the row blocks move with the point, the
    weight block stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 ∧ t.val < 10 :=
  (by decide +kernel : ∀ t : Fin grid2.N, _)

/-- What point `t` writes back is block `t` of the product array of the arrays the launch finds. -/
theorem flushed2_eq (c : Dev nD) (t : Fin cfg2.N) :
    (dat2 V c).flushed 3 t = ((cfg2.win 3).blk t).view.read (Elt Ideal)
      (mmArr (V c main_v31) (V c main_v34) (V c main_v12)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S5000x1) hz]
  obtain ⟨e00, e01, e10, e11, e20, e21, e30, e31, ht⟩ := idx_facts2 t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (ix2 p q)
    = mmArr (V c main_v31) (V c main_v34) (V c main_v12) (((cfg2.win 3).blk t).view.emb (ix2 p q))
  refine (Cert.KernelIdeal.Pay.pay_mm2 _ _ _ p q).trans ?_
  have h3 : ((cfg2.win 3).blk t).view.emb (ix2 p q) = ix2 (rowOfBlock ⟨t.val, ht⟩ p) q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  have h0 : ∀ k : Fin 128, iblk2 V c 0 t (ix2 p k) = V c main_v31 (ix2 (rowOfBlock ⟨t.val, ht⟩ p) k) := fun k => by
    show V c main_v31 (((cfg2.win 0).blk t).view.emb (ix2 p k)) = V c main_v31 (ix2 (rowOfBlock ⟨t.val, ht⟩ p) k)
    refine congrArg (V c main_v31) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ k : Fin 128, iblk2 V c 1 t (ix2 k q) = V c main_v34 (ix2 k q) := fun k => by
    show V c main_v34 (((cfg2.win 1).blk t).view.emb (ix2 k q)) = V c main_v34 (ix2 k q)
    refine congrArg (V c main_v34) (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  have h2 : iblk2 V c 2 t (ix2 p (0 : Fin 1)) = V c main_v12 (ix2 (rowOfBlock ⟨t.val, ht⟩ p) (0 : Fin 1)) := by
    show V c main_v12 (((cfg2.win 2).blk t).view.emb (ix2 p (0 : Fin 1))) = V c main_v12 (ix2 (rowOfBlock ⟨t.val, ht⟩ p) (0 : Fin 1))
    refine congrArg (V c main_v12) (funext fun a => Fin.ext ?_)
    match a with
    | ⟨0, _⟩ => show win2_2.index t (0 : Fin 2) * 5000 + 1 * p.val = t.val * 5000 + p.val; omega
    | ⟨1, _⟩ => show win2_2.index t (1 : Fin 2) * 1 + 1 * 0 = 0; omega
  rw [h3, h2]
  show _ = mmAt (V c main_v31) (V c main_v34) (V c main_v12) (rowOfBlock ⟨t.val, ht⟩ p) q
  unfold mmAt
  exact congrArg (· * _) (Finset.sum_congr rfl fun k _ => by rw [h0 k, h1 k])

/-- An index of the output array is in point `t`'s block iff its coordinates are in the block's ranges. -/
theorem mem_blk2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v35).slice (win2_3.rect t)).set ↔ _
  rw [View.set_slice_whole, Rect.mem_set_unit]
  exact Iff.rfl

/-- Row `r` of the output array is in the block of point `r / 5000`: the ten blocks tile the array. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  let t : Fin cfg2.N := ⟨(i 0).val / 5000, by show (i 0).val / 5000 < grid2.N; rw [N_2]; omega⟩
  obtain ⟨-, -, -, -, -, -, e30, e31, -⟩ := idx_facts2 t
  have tv : t.val = (i 0).val / 5000 := rfl
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- After launch 2 its output array is the product array of the arrays it found. -/
theorem final2 (c : Dev nD) : (dat2 V c).arrAt 3 cfg2.N = mmArr (V c main_v31) (V c main_v34) (V c main_v12) :=
  (dat2 V c).arrAt_eq_of_cover 3 _ (fun t _ => flushed2_eq V c t) (cover2)

end Launch2

end Cert.KernelIdeal.Launches

end
-- ==== Proof.KLaunch3.lean ====
/-
  The second rectifier launch: whatever arrays it finds, its output array ends as the rectifier array
  `max (d (r, 0) * a (r, q) + b (0, q)) 0` of them — block `t` of that array is what point `t` writes back, and the ten blocks tile it.
-/
import proofs.«128690_j43903155699851_2_alg».proof.Proof.Gen.KernelIdeal.Frame
import proofs.«128690_j43903155699851_2_alg».proof.Proof.KPay
import proofs.«128690_j43903155699851_2_alg».proof.Proof.KLaunchDefs
import Idealize.ShloMosaic.Lib.ValueIdx
import Idealize.ShloMosaic.Lib.Pipeline.Value

set_option maxRecDepth 16384

noncomputable section

namespace Cert.KernelIdeal.Launches

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Launch 3: the rectifier `max (d * a + b) 0` on row blocks -/

section Launch3

/-- The printed index maps of launch 3, decided over its ten grid points: the row blocks move with the point, the
    bias row stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 ∧ t.val < 10 :=
  (by decide +kernel : ∀ t : Fin grid3.N, _)

/-- What point `t` writes back is block `t` of the rectifier array of the arrays the launch finds. -/
theorem flushed3_eq (c : Dev nD) (t : Fin cfg3.N) :
    (dat3 V c).flushed 3 t = ((cfg3.win 3).blk t).view.read (Elt Ideal)
      (brArr (V c main_v46) (V c main_v49) (V c main_v12)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz, View.ld_unit_zero (S := S5000x1) hz]
  obtain ⟨e00, e01, e10, e11, e20, e21, e30, e31, ht⟩ := idx_facts3 t
  funext j
  obtain ⟨p, q, rfl⟩ : ∃ (p : Fin 5000) (q : Fin 128), j = ix2 p q := ⟨j 0, j 1, eq_ix2 j⟩
  show k3_pay1 (F := Ideal) (iblk3 V c 2 t) (iblk3 V c 1 t) (iblk3 V c 0 t) (ix2 p q)
    = brArr (V c main_v46) (V c main_v49) (V c main_v12) (((cfg3.win 3).blk t).view.emb (ix2 p q))
  refine (Cert.KernelIdeal.Pay.pay_br3 _ _ _ p q).trans ?_
  have h3 : ((cfg3.win 3).blk t).view.emb (ix2 p q) = ix2 (rowOfBlock ⟨t.val, ht⟩ p) q := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  have h0 : iblk3 V c 0 t (ix2 p q) = V c main_v46 (ix2 (rowOfBlock ⟨t.val, ht⟩ p) q) := by
    show V c main_v46 (((cfg3.win 0).blk t).view.emb (ix2 p q)) = V c main_v46 (ix2 (rowOfBlock ⟨t.val, ht⟩ p) q)
    refine congrArg (V c main_v46) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * q.val = q.val; omega
  have h1 : iblk3 V c 1 t (ix2 (0 : Fin 1) q) = V c main_v49 (ix2 (0 : Fin 1) q) := by
    show V c main_v49 (((cfg3.win 1).blk t).view.emb (ix2 (0 : Fin 1) q)) = V c main_v49 (ix2 (0 : Fin 1) q)
    refine congrArg (V c main_v49) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  have h2 : iblk3 V c 2 t (ix2 p (0 : Fin 1)) = V c main_v12 (ix2 (rowOfBlock ⟨t.val, ht⟩ p) (0 : Fin 1)) := by
    show V c main_v12 (((cfg3.win 2).blk t).view.emb (ix2 p (0 : Fin 1))) = V c main_v12 (ix2 (rowOfBlock ⟨t.val, ht⟩ p) (0 : Fin 1))
    refine congrArg (V c main_v12) (funext fun a => Fin.ext ?_)
    match a with
    | ⟨0, _⟩ => show win3_2.index t (0 : Fin 2) * 5000 + 1 * p.val = t.val * 5000 + p.val; omega
    | ⟨1, _⟩ => show win3_2.index t (1 : Fin 2) * 1 + 1 * 0 = 0; omega
  rw [h3, h0, h1, h2]
  rfl

/-- An index of the output array is in point `t`'s block iff its coordinates are in the block's ranges. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v50).slice (win3_3.rect t)).set ↔ _
  rw [View.set_slice_whole, Rect.mem_set_unit]
  exact Iff.rfl

/-- Row `r` of the output array is in the block of point `r / 5000`: the ten blocks tile the array. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  let t : Fin cfg3.N := ⟨(i 0).val / 5000, by show (i 0).val / 5000 < grid3.N; rw [N_3]; omega⟩
  obtain ⟨-, -, -, -, -, -, e30, e31, -⟩ := idx_facts3 t
  have tv : t.val = (i 0).val / 5000 := rfl
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- After launch 3 its output array is the rectifier array of the arrays it found. -/
theorem final3 (c : Dev nD) : (dat3 V c).arrAt 3 cfg3.N = brArr (V c main_v46) (V c main_v49) (V c main_v12) :=
  (dat3 V c).arrAt_eq_of_cover 3 _ (fun t _ => flushed3_eq V c t) (cover3)

end Launch3

end Cert.KernelIdeal.Launches

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.LibEdgeSum.lean ====
/-
  Sums of extended reals over a finite set of edges, scaled by a degree factor.

  A graph convolution with symmetric normalisation sums, over the edges `e` that end at a node `d`, a message
  `a e` scaled by `s e * c`, where `c` is the factor of `d` itself. The factor of the end node is the same for
  every edge of the sum, so it may be taken out of the sum — provided multiplication by it distributes over a
  sum of EXTENDED reals, which it does when `0 ≤ c` and `c ≠ ⊤`. The factor is `1 / √(number of edges ending at d)`:
  a positive real when some edge ends at `d`, and `⊤` exactly when none does — and then the sum is empty and both
  sides are zero. So the two forms agree for every family of extended reals, with no finiteness asked of the messages.
-/
import Idealize.ShloMosaic.PureOps.Ideal

noncomputable section

namespace Cert.Lib.EdgeSum

open Idealize.ShloMosaic

/-- The word of `+0.0` denotes `0`. -/
theorem ofBits_zero : Ideal.ofBits .f32 0x00000000#32 = 0 := by
  simp [Ideal.ofBits, Ideal.ieee]

/-- The word of `1.0` denotes `1`. -/
theorem ofBits_one : Ideal.ofBits .f32 0x3F800000#32 = 1 := by
  simp [Ideal.ofBits, Ideal.ieee, -EReal.coe_mul]; norm_num

/-- A nonnegative extended real other than `⊤` scales a finite sum of extended reals term by term. -/
theorem sum_mul_of_nonneg_of_ne_top {ι : Type} (S : Finset ι) (t : ι → EReal) {c : EReal} (h0 : 0 ≤ c) (ht : c ≠ ⊤) :
    (∑ e ∈ S, t e) * c = ∑ e ∈ S, t e * c := by
  classical
  induction S using Finset.induction_on with
  | empty => simp
  | insert a S ha ih =>
    rw [Finset.sum_insert ha, Finset.sum_insert ha, EReal.right_distrib_of_nonneg_of_ne_top h0 ht, ih]

/-- A sum of ones over a finite set is its number of elements. -/
theorem sum_ones {ι : Type} (S : Finset ι) : ∑ _e ∈ S, (1 : EReal) = ((S.card : ℝ) : EReal) := by
  classical
  induction S using Finset.induction_on with
  | empty => simp
  | insert a S ha ih =>
    rw [Finset.sum_insert ha, ih, Finset.card_insert_of_notMem ha, Nat.cast_succ, EReal.coe_add, EReal.coe_one, add_comm]

/-- The degree factor of a node: the reciprocal square root of the number of edges in `S`, counted as a sum of ones
    onto zero. Either `S` is empty, or the factor is a nonnegative extended real other than `⊤`. -/
theorem rsqrt_count {ι : Type} (S : Finset ι) :
    S = ∅ ∨ (0 ≤ Ideal.rsqrt ((0 : EReal) + ∑ _e ∈ S, (1 : EReal)) ∧ Ideal.rsqrt ((0 : EReal) + ∑ _e ∈ S, (1 : EReal)) ≠ ⊤) := by
  rcases S.eq_empty_or_nonempty with h | h
  · exact Or.inl h
  · right
    have hs : (0 : EReal) + ∑ _e ∈ S, (1 : EReal) = ((S.card : ℝ) : EReal) := by
      rw [zero_add]; exact sum_ones S
    have hpos : (0 : ℝ) < S.card := by exact_mod_cast h.card_pos
    rw [hs, Ideal.rsqrt_coe, if_neg (not_lt.mpr hpos.le), if_neg hpos.ne']
    exact ⟨by exact_mod_cast (inv_nonneg.mpr (Real.sqrt_nonneg _)), EReal.coe_ne_top _⟩

/-- A factor that is nonnegative and not `⊤` may be moved from behind a sum of pre-scaled messages into each term. -/
theorem scaled_sum_of {ι : Type} (S : Finset ι) (a s : ι → EReal) {c : EReal} (h0 : 0 ≤ c) (ht : c ≠ ⊤) :
    ((0 : EReal) + ∑ e ∈ S, a e * s e) * c = (0 : EReal) + ∑ e ∈ S, a e * (s e * c) := by
  rw [zero_add, zero_add, sum_mul_of_nonneg_of_ne_top S _ h0 ht]
  exact Finset.sum_congr rfl fun e _ => mul_assoc _ _ _

/-- THE LAW OF THE NORMALISED AGGREGATION. Over the edges `S` that end at one node, whose degree factor is `c` (the
    reciprocal square root of their number): the sum of the pre-scaled messages `a e * s e`, scaled by `c` afterwards, is
    the sum of the messages each scaled by `s e * c`. -/
theorem scaled_sum {ι : Type} (S : Finset ι) (a s : ι → EReal) :
    ((0 : EReal) + ∑ e ∈ S, a e * s e) * Ideal.rsqrt ((0 : EReal) + ∑ _e ∈ S, (1 : EReal))
      = (0 : EReal) + ∑ e ∈ S, a e * (s e * Ideal.rsqrt ((0 : EReal) + ∑ _e ∈ S, (1 : EReal))) := by
  rcases rsqrt_count S with h | ⟨h0, ht⟩
  · subst h; simp
  · exact scaled_sum_of S a s h0 ht

end Cert.Lib.EdgeSum

end
-- ==== Proof.Gcn.lean ====
/-
  A graph convolution with symmetric degree normalisation and a rectifier, on the extended reals, in the two
  arrangements the two programs use, and the host operations that build its pieces.

  The graph: 850000 edges over 50000 nodes, given by two columns of 32-bit row numbers.  An edge `e` ends at node `n`
  when its end number, read as a signed integer, is `n` (a number outside the node range ends nowhere); it starts at the
  node whose number is its start number — a negative one counted from the end — clamped into the node range.  The
  factor of a node is the reciprocal square root of the number of edges that end at it.

  One layer sends node features `x : [50000, 128]` to
  `max ((∑ over the edges e ending at n of (x · w) (start e, q) * (f (start e) * f n)) + b q) 0`.
  The second arrangement scales every row of `x · w` by its own node's factor first, sums, and scales the sum by the end
  node's factor afterwards.  The two agree because a nonnegative factor other than `⊤` distributes over a finite sum of
  extended reals, and when no edge ends at `n` both sums are empty: nothing is asked of the features, which may be infinite.
-/
import Idealize.ShloMosaic.PureOps.Ideal
import Idealize.ShloMosaic.PureOps.Ideal.Laws
import Idealize.ShloMosaic.Lib.ValueIdx
import Idealize.ShloMosaic.Lib.Pipeline.Value
import proofs.«128690_j43903155699851_2_alg».proof.Proof.LibRows
import proofs.«128690_j43903155699851_2_alg».proof.Proof.LibEdgeSum
import proofs.«128690_j43903155699851_2_alg».proof.Proof.LibDense

noncomputable section

namespace Cert.Gcn

open Idealize.ShloMosaic Idealize.ShloMosaic.ValueIdx Cert.Lib.Rows

/-! ## The shapes -/

abbrev T0 : Shape := ⟨0, ![]⟩
abbrev TN : Shape := ⟨1, ![50000]⟩
abbrev TE : Shape := ⟨1, ![850000]⟩
abbrev TE1 : Shape := ⟨2, ![850000, 1]⟩
abbrev TN1 : Shape := ⟨2, ![50000, 1]⟩
abbrev TND : Shape := ⟨2, ![50000, 128]⟩
abbrev TED : Shape := ⟨2, ![850000, 128]⟩
abbrev TDD : Shape := ⟨2, ![128, 128]⟩
abbrev T1D : Shape := ⟨2, ![1, 128]⟩
abbrev TD : Shape := ⟨1, ![128]⟩

/-- The word of `+0.0`, as the programs spell it. -/
abbrev zw : EReal := Ideal.ofBits .f32 0x00000000#32
/-- The word of `1.0`. -/
abbrev ow : EReal := Ideal.ofBits .f32 0x3F800000#32

/-! ## The layer in its two arrangements, over an abstract graph -/

section Abstract

variable {E : ℕ} (S : Fin 50000 → Finset (Fin E)) (sr dr : Fin E → Fin 50000) (dv : Fin 50000 → EReal)

/-- Entry (r, q) of `x · w`. -/
def xw (x : TND.Idx → EReal) (w : TDD.Idx → EReal) (r : Fin 50000) (q : Fin 128) : EReal :=
  ∑ k : Fin 128, x (ix2 r k) * w (ix2 k q)

/-- The layer with every row of `x · w` scaled by its node's factor before the sum and the sum by the end node's after,
    at entry (n, q). -/
def hopKAt (x : TND.Idx → EReal) (w : TDD.Idx → EReal) (b : Fin 128 → EReal) (n : Fin 50000) (q : Fin 128) : EReal :=
  max (dv n * (zw + ∑ e ∈ S n, xw x w (sr e) q * dv (sr e)) + b q) zw

/-- The layer with every edge's message scaled by the product of its two end nodes' factors, at entry (n, q). -/
def hopRAt (x : TND.Idx → EReal) (w : TDD.Idx → EReal) (b : Fin 128 → EReal) (n : Fin 50000) (q : Fin 128) : EReal :=
  max ((zw + ∑ e ∈ S n, xw x w (sr e) q * (dv (sr e) * dv (dr e))) + b q) zw

/-- The two as arrays. -/
def hopK (x : TND.Idx → EReal) (w : TDD.Idx → EReal) (b : Fin 128 → EReal) : TND.Idx → EReal :=
  fun i => hopKAt S sr dv x w b (i 0) (i 1)
def hopR (x : TND.Idx → EReal) (w : TDD.Idx → EReal) (b : Fin 128 → EReal) : TND.Idx → EReal :=
  fun i => hopRAt S sr dr dv x w b (i 0) (i 1)

/-- THE TWO ARRANGEMENTS AGREE, for any features: the end node of an edge that ends at `n` is `n`, and its factor — the
    reciprocal square root of the number of such edges — moves across the sum. -/
theorem hopKAt_eq_hopRAt (hdr : ∀ n e, e ∈ S n → dr e = n) (hdv : ∀ n, dv n = Ideal.rsqrt (zw + ∑ _e ∈ S n, ow))
    (x : TND.Idx → EReal) (w : TDD.Idx → EReal) (b : Fin 128 → EReal) (n : Fin 50000) (q : Fin 128) :
    hopKAt S sr dv x w b n q = hopRAt S sr dr dv x w b n q := by
  unfold hopKAt hopRAt
  have hs : dv n * (zw + ∑ e ∈ S n, xw x w (sr e) q * dv (sr e))
      = zw + ∑ e ∈ S n, xw x w (sr e) q * (dv (sr e) * dv (dr e)) := by
    have hc : ∀ e ∈ S n, xw x w (sr e) q * (dv (sr e) * dv (dr e)) = xw x w (sr e) q * (dv (sr e) * dv n) :=
      fun e he => by rw [hdr n e he]
    rw [Finset.sum_congr rfl hc, mul_comm, hdv n]
    show (Ideal.ofBits .f32 0x00000000#32 + ∑ e ∈ S n, xw x w (sr e) q * dv (sr e))
        * Ideal.rsqrt (Ideal.ofBits .f32 0x00000000#32 + ∑ _e ∈ S n, Ideal.ofBits .f32 0x3F800000#32)
      = Ideal.ofBits .f32 0x00000000#32 + ∑ e ∈ S n, xw x w (sr e) q
          * (dv (sr e) * Ideal.rsqrt (Ideal.ofBits .f32 0x00000000#32 + ∑ _e ∈ S n, Ideal.ofBits .f32 0x3F800000#32))
    rw [Cert.Lib.EdgeSum.ofBits_zero, Cert.Lib.EdgeSum.ofBits_one]
    exact Cert.Lib.EdgeSum.scaled_sum (S n) (fun e => xw x w (sr e) q) (fun e => dv (sr e))
  rw [hs]

theorem hopK_eq_hopR (hdr : ∀ n e, e ∈ S n → dr e = n) (hdv : ∀ n, dv n = Ideal.rsqrt (zw + ∑ _e ∈ S n, ow))
    (x : TND.Idx → EReal) (w : TDD.Idx → EReal) (b : Fin 128 → EReal) :
    hopK S sr dv x w b = hopR S sr dr dv x w b :=
  funext fun i => hopKAt_eq_hopRAt S sr dr dv hdr hdv x w b (i 0) (i 1)

end Abstract

end Cert.Gcn

end
-- ==== Proof.GcnHost.lean ====
/-
  The host operations that build the layer's pieces, each read at an entry.

  A column of row numbers is a vector laid out as `[850000, 1]`; a start number is first made nonnegative (a negative
  one counts from the end); the node factors are the reciprocal square roots of a sum of ones over the edges that end at
  each node; a row gather reads the table at the clamped row; an accumulating scatter adds, into node `n`, the messages of
  the edges whose end number is `n`.  From these the two programs' layers are read at an entry as the two arrangements of
  the abstract layer, over ONE graph: the edges ending at a node, the start row of an edge and the end row of an edge are
  the same functions of the two columns on both sides.
-/
import proofs.«128690_j43903155699851_2_alg».proof.Proof.Gcn

noncomputable section

namespace Cert.Gcn

open Idealize.ShloMosaic Idealize.ShloMosaic.ValueIdx Cert.Lib.Rows

/-- The host's accumulating scatter on the extended reals is the sum it denotes. -/
theorem hostScatterAdd_eq {s si su : Shape} {w : Nat} (d : ScatterDims s si su) (x : FVec Ideal s .f32) (idx : IVec si w)
    (upd : FVec Ideal su .f32) : Host.scatterAdd d x idx upd = Ideal.hostScatterAdd d x idx upd := rfl

/-- The host's reciprocal square root, entry by entry. -/
theorem hostRsqrt_apply {s : Shape} (x : FVec Ideal s .f32) (i : s.Idx) : Host.rsqrt x i = Ideal.rsqrt (x i) := rfl

/-- The elementwise operations, entry by entry. -/
theorem maximumf_at {s : Shape} (x y : FVec Ideal s .f32) (i : s.Idx) : maximumf x y i = max (x i) (y i) := rfl
theorem addf_at {s : Shape} (x y : FVec Ideal s .f32) (i : s.Idx) : addf x y i = x i + y i := rfl
theorem mulf_at {s : Shape} (x y : FVec Ideal s .f32) (i : s.Idx) : mulf x y i = x i * y i := rfl

/-! ## Columns of row numbers -/

/-- A vector of row numbers laid out as a column. -/
def colOf (h : TE.BroadcastsInDim TE1 (![0] : Fin 1 → Fin TE1.rank)) (v : IVec TE 32) : IVec TE1 32 :=
  broadcastInDim TE1 ![0] h v

theorem colOf_apply (h : TE.BroadcastsInDim TE1 (![0] : Fin 1 → Fin TE1.rank)) (v : IVec TE 32) (e : Fin 850000) :
    colOf h v (ix2 e (0 : Fin 1)) = v (ix1 e) := by
  unfold colOf
  exact broadcastInDim_apply _ h v (ix2 e (0 : Fin 1)) (ix1 e) (fun a => match a with
    | ⟨0, _⟩ => by show e.val = if (850000 : Nat) = 1 then 0 else e.val; rw [if_neg (by decide)])

/-- A row number made nonnegative: a negative one counts from the end of the 50000 rows. -/
def wrapV (h : T0.BroadcastsInDim TE (![] : Fin 0 → Fin TE.rank)) (v : IVec TE 32) : IVec TE 32 :=
  select (cmpi .slt v (broadcastInDim TE ![] h (constantI T0 32 0#32)))
    (addi v (broadcastInDim TE ![] h (constantI T0 32 50000#32))) v

theorem wrapV_apply (h : T0.BroadcastsInDim TE (![] : Fin 0 → Fin TE.rank)) (v : IVec TE 32) (e : Fin 850000) :
    wrapV h v (ix1 e) = Scalar.select (IntOp.cmpi .slt (v (ix1 e)) 0#32) (IntOp.addi (v (ix1 e)) 50000#32) (v (ix1 e)) := rfl

/-! ## The graph two columns describe -/

/-- The edges that end at node `n`. -/
def endsAt (dstC : IVec TE1 32) (n : Fin 50000) : Finset (Fin 850000) := edgesInto dstC n
/-- The row an edge's (nonnegative) number selects. -/
def rowAt (c : IVec TE1 32) (e : Fin 850000) : Fin 50000 := rowOf 50000 (by decide) (c (ix2 e (0 : Fin 1)))

/-- An edge that ends at `n` has, as the row its end number selects once made nonnegative, `n` itself. -/
theorem rowAt_wrap_of_endsAt (h1 : TE.BroadcastsInDim TE1 (![0] : Fin 1 → Fin TE1.rank))
    (h0 : T0.BroadcastsInDim TE (![] : Fin 0 → Fin TE.rank)) (dst : IVec TE 32) (n : Fin 50000) (e : Fin 850000)
    (he : e ∈ endsAt (colOf h1 dst) n) : rowAt (colOf h1 (wrapV h0 dst)) e = n := by
  have hv : (dst (ix1 e)).toInt = (n.val : Int) := by
    have := (mem_edgesInto (colOf h1 dst) n e).mp he
    rwa [colOf_apply] at this
  unfold rowAt
  rw [colOf_apply, wrapV_apply, wrap_of_toInt (dst (ix1 e)) 50000#32 n.val hv]
  exact rowOf_of_toInt (by decide) _ n hv

/-! ## The node factors -/

/-- The factor of every node: the reciprocal square root of a sum of ones over the edges ending at it, onto zero. -/
def degInv (hN : T0.BroadcastsInDim TN (![] : Fin 0 → Fin TN.rank)) (hE : T0.BroadcastsInDim TE (![] : Fin 0 → Fin TE.rank))
    (wf : ScatterDims.WF TN TE1 TE [] [0] [0] 1) (dstC : IVec TE1 32) : FVec Ideal TN .f32 :=
  Host.rsqrt (Host.scatterAdd (scatterEltsDims 50000 850000 wf)
    (broadcastInDim TN ![] hN (constant (F := Ideal) T0 .f32 0x00000000#32)) dstC
    (broadcastInDim TE ![] hE (constant (F := Ideal) T0 .f32 0x3F800000#32)))

theorem degInv_apply (hN : T0.BroadcastsInDim TN (![] : Fin 0 → Fin TN.rank)) (hE : T0.BroadcastsInDim TE (![] : Fin 0 → Fin TE.rank))
    (wf : ScatterDims.WF TN TE1 TE [] [0] [0] 1) (dstC : IVec TE1 32) (n : Fin 50000) :
    degInv hN hE wf dstC (ix1 n) = Ideal.rsqrt (zw + ∑ _e ∈ endsAt dstC n, ow) := by
  unfold degInv
  rw [hostRsqrt_apply, hostScatterAdd_eq, scatterAddElts_apply]
  exact congrArg Ideal.rsqrt (congrArg₂ (· + ·) rfl (Finset.sum_congr rfl fun e _ => rfl))

/-! ## The kernel program's aggregation -/

/-- The sum, into every node, of the gathered start rows of a table over the edges ending there. -/
def aggK (h0 : T0.BroadcastsInDim TND (![] : Fin 0 → Fin TND.rank)) (wfS : ScatterDims.WF TND TE1 TED [1] [0] [0] 1)
    (wfG : GatherDims.WF TND TE1 TED [1] [0] [] [0] [] 1 ![1, 128]) (hlt : FTy.bits .bf16 < FTy.bits .f32)
    (dstC srcC : IVec TE1 32) (hs : FVec Ideal TND .bf16) : FVec Ideal TND .f32 :=
  Host.scatterAdd (scatterRowsDims 50000 850000 128 wfS)
    (broadcastInDim TND ![] h0 (constant (F := Ideal) T0 .f32 0x00000000#32)) dstC
    (extf .f32 (Host.gather (gatherRowsDims 50000 850000 128 wfG) hs srcC) hlt)

theorem aggK_apply (h0 : T0.BroadcastsInDim TND (![] : Fin 0 → Fin TND.rank)) (wfS : ScatterDims.WF TND TE1 TED [1] [0] [0] 1)
    (wfG : GatherDims.WF TND TE1 TED [1] [0] [] [0] [] 1 ![1, 128]) (hlt : FTy.bits .bf16 < FTy.bits .f32)
    (dstC srcC : IVec TE1 32) (hs : FVec Ideal TND .bf16) (n : Fin 50000) (q : Fin 128) :
    aggK h0 wfS wfG hlt dstC srcC hs (ix2 n q) = zw + ∑ e ∈ endsAt dstC n, hs (ix2 (rowAt srcC e) q) := by
  unfold aggK
  rw [hostScatterAdd_eq, scatterAddRows_apply]
  refine congrArg₂ (· + ·) rfl (Finset.sum_congr rfl fun e _ => ?_)
  exact gatherRows_apply (by decide : 0 < 50000) wfG hs srcC e q

/-! ## The reference program's layer -/

/-- The reference's layer as it spells it: the product, the gathered start rows scaled by the product of the two gathered
    end-node factors, the accumulating scatter, the bias on every row, the rectifier. -/
def refLayer (h0 : T0.BroadcastsInDim TND (![] : Fin 0 → Fin TND.rank)) (wfS : ScatterDims.WF TND TE1 TED [1] [0] [0] 1)
    (wfG : GatherDims.WF TND TE1 TED [1] [0] [] [0] [] 1 ![1, 128])
    (wfE : GatherDims.WF TN TE1 TE [] [0] [] [0] [] 1 ![1])
    (h1 : TE.BroadcastsInDim TE1 (![0] : Fin 1 → Fin TE1.rank))
    (hED : TE1.BroadcastsInDim TED (![0, 1] : Fin 2 → Fin TED.rank))
    (hbN : T1D.BroadcastsInDim TND (![0, 1] : Fin 2 → Fin TND.rank))
    (hb1 : TD.BroadcastsInDim T1D (![1] : Fin 1 → Fin T1D.rank))
    (dv : FVec Ideal TN .f32) (dstC srcC dstwC : IVec TE1 32)
    (x : FVec Ideal TND .f32) (w : FVec Ideal TDD .f32) (bvec : FVec Ideal TD .f32) : FVec Ideal TND .f32 :=
  maximumf
    (addf
      (Host.scatterAdd (scatterRowsDims 50000 850000 128 wfS)
        (broadcastInDim TND ![] h0 (constant (F := Ideal) T0 .f32 0x00000000#32)) dstC
        (mulf (Host.gather (gatherRowsDims 50000 850000 128 wfG)
                (Host.dotGeneral (DotDims.plain 50000 128 128) none x w) srcC)
          (broadcastInDim TED ![0, 1] hED (broadcastInDim TE1 ![0] h1
            (mulf (Host.gather (gatherEltsDims 50000 850000 wfE) dv srcC) (Host.gather (gatherEltsDims 50000 850000 wfE) dv dstwC))))))
      (broadcastInDim TND ![0, 1] hbN (broadcastInDim T1D ![1] hb1 bvec)))
    (broadcastInDim TND ![] h0 (constant (F := Ideal) T0 .f32 0x00000000#32))

theorem refLayer_apply (h0 : T0.BroadcastsInDim TND (![] : Fin 0 → Fin TND.rank)) (wfS : ScatterDims.WF TND TE1 TED [1] [0] [0] 1)
    (wfG : GatherDims.WF TND TE1 TED [1] [0] [] [0] [] 1 ![1, 128])
    (wfE : GatherDims.WF TN TE1 TE [] [0] [] [0] [] 1 ![1])
    (h1 : TE.BroadcastsInDim TE1 (![0] : Fin 1 → Fin TE1.rank))
    (hED : TE1.BroadcastsInDim TED (![0, 1] : Fin 2 → Fin TED.rank))
    (hbN : T1D.BroadcastsInDim TND (![0, 1] : Fin 2 → Fin TND.rank))
    (hb1 : TD.BroadcastsInDim T1D (![1] : Fin 1 → Fin T1D.rank))
    (dv : FVec Ideal TN .f32) (dstC srcC dstwC : IVec TE1 32)
    (x : FVec Ideal TND .f32) (w : FVec Ideal TDD .f32) (bvec : FVec Ideal TD .f32) (n : Fin 50000) (q : Fin 128) :
    refLayer h0 wfS wfG wfE h1 hED hbN hb1 dv dstC srcC dstwC x w bvec (ix2 n q)
      = hopRAt (endsAt dstC) (rowAt srcC) (rowAt dstwC) (fun n => dv (ix1 n)) x w (fun q => bvec (ix1 q)) n q := by
  unfold refLayer hopRAt
  rw [maximumf_at, addf_at, hostScatterAdd_eq, scatterAddRows_apply]
  have hb : broadcastInDim TND ![0, 1] hbN (broadcastInDim T1D ![1] hb1 bvec) (ix2 n q) = bvec (ix1 q) := by
    refine (broadcastInDim_apply _ hbN _ (ix2 n q) (ix2 (0 : Fin 1) q) (fun a => match a with
      | ⟨0, _⟩ => (if_pos rfl).symm
      | ⟨1, _⟩ => by show q.val = if (128 : Nat) = 1 then 0 else q.val; rw [if_neg (by decide)])).trans ?_
    exact broadcastInDim_apply _ hb1 bvec (ix2 (0 : Fin 1) q) (ix1 q) (fun a => match a with
      | ⟨0, _⟩ => by show q.val = if (128 : Nat) = 1 then 0 else q.val; rw [if_neg (by decide)])
  rw [hb]
  refine congrArg₂ max (congrArg (· + bvec (ix1 q)) (congrArg₂ (· + ·) rfl (Finset.sum_congr rfl fun e _ => ?_))) rfl
  have hc : broadcastInDim TED ![0, 1] hED (broadcastInDim TE1 ![0] h1
      (mulf (Host.gather (gatherEltsDims 50000 850000 wfE) dv srcC) (Host.gather (gatherEltsDims 50000 850000 wfE) dv dstwC))) (ix2 e q)
      = dv (ix1 (rowAt srcC e)) * dv (ix1 (rowAt dstwC e)) := by
    refine (broadcastInDim_apply _ hED _ (ix2 e q) (ix2 e (0 : Fin 1)) (fun a => match a with
      | ⟨0, _⟩ => by show e.val = if (850000 : Nat) = 1 then 0 else e.val; rw [if_neg (by decide)]
      | ⟨1, _⟩ => (if_pos rfl).symm)).trans ?_
    refine (broadcastInDim_apply _ h1 _ (ix2 e (0 : Fin 1)) (ix1 e) (fun a => match a with
      | ⟨0, _⟩ => by show e.val = if (850000 : Nat) = 1 then 0 else e.val; rw [if_neg (by decide)])).trans ?_
    rw [mulf_at]
    exact congrArg₂ (· * ·) (gatherElts_apply (by decide : 0 < 50000) wfE dv srcC e)
      (gatherElts_apply (by decide : 0 < 50000) wfE dv dstwC e)
  rw [mulf_at, hc, gatherRows_apply (by decide : 0 < 50000)]
  refine congrArg (· * _) ?_
  exact Cert.LibDense.dotGeneral_plain (M := 50000) (K := 128) (N := 128) .single x w _

/-- The same as arrays. -/
theorem refLayer_eq (h0 : T0.BroadcastsInDim TND (![] : Fin 0 → Fin TND.rank)) (wfS : ScatterDims.WF TND TE1 TED [1] [0] [0] 1)
    (wfG : GatherDims.WF TND TE1 TED [1] [0] [] [0] [] 1 ![1, 128])
    (wfE : GatherDims.WF TN TE1 TE [] [0] [] [0] [] 1 ![1])
    (h1 : TE.BroadcastsInDim TE1 (![0] : Fin 1 → Fin TE1.rank))
    (hED : TE1.BroadcastsInDim TED (![0, 1] : Fin 2 → Fin TED.rank))
    (hbN : T1D.BroadcastsInDim TND (![0, 1] : Fin 2 → Fin TND.rank))
    (hb1 : TD.BroadcastsInDim T1D (![1] : Fin 1 → Fin T1D.rank))
    (dv : FVec Ideal TN .f32) (dstC srcC dstwC : IVec TE1 32)
    (x : FVec Ideal TND .f32) (w : FVec Ideal TDD .f32) (bvec : FVec Ideal TD .f32) :
    refLayer h0 wfS wfG wfE h1 hED hbN hb1 dv dstC srcC dstwC x w bvec
      = hopR (endsAt dstC) (rowAt srcC) (rowAt dstwC) (fun n => dv (ix1 n)) x w (fun q => bvec (ix1 q)) := by
  funext i
  obtain ⟨n, q, rfl⟩ : ∃ (n : Fin 50000) (q : Fin 128), i = ix2 n q := ⟨i 0, i 1, eq_ix2 i⟩
  exact refLayer_apply h0 wfS wfG wfE h1 hED hbN hb1 dv dstC srcC dstwC x w bvec n q

/-! ## The pieces of the arguments -/

abbrev T2E : Shape := ⟨2, ![2, 800000]⟩
abbrev T1E : Shape := ⟨2, ![1, 800000]⟩
abbrev TE0 : Shape := ⟨1, ![800000]⟩
abbrev T2DD : Shape := ⟨3, ![2, 128, 128]⟩
abbrev T1DD : Shape := ⟨3, ![1, 128, 128]⟩
abbrev T2D : Shape := ⟨2, ![2, 128]⟩

/-- Row `k` of the edge list followed by one self-loop per node: the start numbers (`k = 0`) or the end numbers (`k = 1`). -/
def edgeCol (k : ℕ) (hs : T2E.Slices ![k, 0] T1E) (hc : T1E.ShapeCasts TE0) (hcat : Shape.Concatenates [TE0, TN] TE 0)
    (a1 : IVec T2E 32) : IVec TE 32 :=
  concatenate TE 0 [⟨TE0, shapeCast TE0 (extractStridedSlice T1E ![k, 0] a1 hs) hc⟩, ⟨TN, iotaInDim TN 32 0⟩] hcat

/-- Layer `k`'s weight matrix. -/
def weightOf (k : ℕ) (hs : T2DD.Slices ![k, 0, 0] T1DD) (hc : T1DD.ShapeCasts TDD) (a2 : T2DD.Idx → EReal) : TDD.Idx → EReal :=
  shapeCast TDD (extractStridedSlice T1DD ![k, 0, 0] a2 hs) hc

/-- Layer `k`'s bias vector. -/
def biasOf (k : ℕ) (hs : T2D.Slices ![k, 0] T1D) (hc : T1D.ShapeCasts TD) (a3 : T2D.Idx → EReal) : TD.Idx → EReal :=
  shapeCast TD (extractStridedSlice T1D ![k, 0] a3 hs) hc

end Cert.Gcn

end
-- ==== Proof.KChain.lean ====
/-
  The kernel's result array as two layers of the pre-scaled arrangement.

  Between the launches the host gathers and scatters; nothing a launch reads is written by anything but the operations
  before it.  Walking the buffers from the launch of the program to its end: the two columns of row numbers, the column of
  node factors, the weights and the biases are computed once from the arguments and reach every launch unchanged; the
  first product launch's output is gathered and accumulated into the first rectifier launch's input, whose output is
  the second product launch's input, and so on.  Each launch is one array function of what it finds, so the result is
  the composition — two layers, each the arrangement that scales rows before the sum and the sum after it.
-/
import proofs.«128690_j43903155699851_2_alg».proof.Proof.Gen.KernelIdeal.Frame
import proofs.«128690_j43903155699851_2_alg».proof.Proof.KLaunch0
import proofs.«128690_j43903155699851_2_alg».proof.Proof.KLaunch1
import proofs.«128690_j43903155699851_2_alg».proof.Proof.KLaunch2
import proofs.«128690_j43903155699851_2_alg».proof.Proof.KLaunch3
import proofs.«128690_j43903155699851_2_alg».proof.Proof.GcnHost
import proofs.«128690_j43903155699851_2_alg».proof.Proof.LibBiasRows
import Idealize.ShloMosaic.Lib.StableHlo.Run

set_option maxRecDepth 16384

noncomputable section

namespace Cert.KernelIdeal.Chain

open Cert.KernelIdeal Cert.KernelIdeal.Gen Cert.KernelIdeal.Launches Cert.Gcn
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## The pieces computed from the arguments -/

/-- The start numbers and the end numbers of the edges, self-loops included. -/
abbrev srcV : IVec S850000 32 :=
  edgeCol 0 slices_S2x800000_S1x800000_0_0 shapeCasts_S1x800000_S800000 concatenates_S800000_S50000_S850000_d0
    (m ((c : Thread nD τ).loc main_arg1))
abbrev dstV : IVec S850000 32 :=
  edgeCol 1 slices_S2x800000_S1x800000_1_0 shapeCasts_S1x800000_S800000 concatenates_S800000_S50000_S850000_d0
    (m ((c : Thread nD τ).loc main_arg1))
/-- The column of end numbers, and the column of start numbers made nonnegative. -/
abbrev dstC : IVec S850000x1 32 := colOf bcast_S850000_S850000x1_0 (dstV m c)
abbrev srcC : IVec S850000x1 32 := colOf bcast_S850000_S850000x1_0 (wrapV bcast_S_S850000 (srcV m c))
/-- The node factors, as a vector and as the column the launches read. -/
abbrev dinvV : S50000.Idx → EReal :=
  degInv bcast_S_S50000 bcast_S_S850000 scatter_S50000_S850000x1_S850000_n_0_0_1_wf (dstC m c)
abbrev dinvC : S50000x1.Idx → EReal := shapeCast S50000x1 (dinvV m c) shapeCasts_S50000_S50000x1

/-- The weights as the product launches find them (a change of float format is the identity), and the bias rows. -/
abbrev wK0 : S128x128.Idx → EReal :=
  truncf (F := Ideal) .bf16 (weightOf 0 slices_S2x128x128_S1x128x128_0_0_0 shapeCasts_S1x128x128_S128x128 (m ((c : Thread nD τ).loc main_arg2))) bitsLt_bf16_f32
abbrev wK1 : S128x128.Idx → EReal :=
  truncf (F := Ideal) .bf16 (weightOf 1 slices_S2x128x128_S1x128x128_1_0_0 shapeCasts_S1x128x128_S128x128 (m ((c : Thread nD τ).loc main_arg2))) bitsLt_bf16_f32
abbrev bK0 : S1x128.Idx → EReal :=
  shapeCast S1x128 (biasOf 0 slices_S2x128_S1x128_0_0 shapeCasts_S1x128_S128 (m ((c : Thread nD τ).loc main_arg3))) shapeCasts_S128_S1x128
abbrev bK1 : S1x128.Idx → EReal :=
  shapeCast S1x128 (biasOf 1 slices_S2x128_S1x128_1_0 shapeCasts_S1x128_S128 (m ((c : Thread nD τ).loc main_arg3))) shapeCasts_S128_S1x128

/-- The gather-and-accumulate between a product launch and the next rectifier launch. -/
abbrev agg (hs : S50000x128.Idx → EReal) : S50000x128.Idx → EReal :=
  aggK bcast_S_S50000x128 scatter_S50000x128_S850000x1_S850000x128_1_0_0_1_wf
    gather_S50000x128_S850000x1_S850000x128_1_0_n_n_0_1_1128_wf bitsLt_bf16_f32 (dstC m c) (srcC m c) hs

/-- The four launches' outputs. -/
abbrev h1 : S50000x128.Idx → EReal := mmArr (m ((c : Thread nD τ).loc main_arg0)) (wK0 m c) (dinvC m c)
abbrev x1 : S50000x128.Idx → EReal := brArr (agg m c (h1 m c)) (bK0 m c) (dinvC m c)
abbrev h2 : S50000x128.Idx → EReal := mmArr (x1 m c) (wK1 m c) (dinvC m c)
abbrev x2 : S50000x128.Idx → EReal := brArr (agg m c (h2 m c)) (bK1 m c) (dinvC m c)

/-! ## After the first host stretch -/

theorem w1_v3 : W1 m ρ c (Proc.devRef .tc main_v3) = srcV m c := by
  show StableHlo.after hostOps0 (W0 m ρ c) (Proc.devRef .tc main_v3) = _
  after_results
  rfl

theorem w1_v6 : W1 m ρ c (Proc.devRef .tc main_v6) = dstV m c := by
  show StableHlo.after hostOps0 (W0 m ρ c) (Proc.devRef .tc main_v6) = _
  after_results
  rfl

theorem w1_v12 : W1 m ρ c (Proc.devRef .tc main_v12) = dinvC m c := by
  show StableHlo.after hostOps0 (W0 m ρ c) (Proc.devRef .tc main_v12) = _
  after_results
  rfl

theorem w1_v15 : W1 m ρ c (Proc.devRef .tc main_v15) = wK0 m c := by
  show StableHlo.after hostOps0 (W0 m ρ c) (Proc.devRef .tc main_v15) = _
  after_results
  rfl

theorem w1_arg0 : W1 m ρ c (Proc.devRef .tc main_arg0) = m ((c : Thread nD τ).loc main_arg0) := by
  show StableHlo.after hostOps0 (W0 m ρ c) (Proc.devRef .tc main_arg0) = _
  after_results

theorem w1_arg2 : W1 m ρ c (Proc.devRef .tc main_arg2) = m ((c : Thread nD τ).loc main_arg2) := by
  show StableHlo.after hostOps0 (W0 m ρ c) (Proc.devRef .tc main_arg2) = _
  after_results

theorem w1_arg3 : W1 m ρ c (Proc.devRef .tc main_arg3) = m ((c : Thread nD τ).loc main_arg3) := by
  show StableHlo.after hostOps0 (W0 m ρ c) (Proc.devRef .tc main_arg3) = _
  after_results

/-! ## After the first product launch -/

theorem w2_v16 : W2 m ρ c (Proc.devRef .tc main_v16) = h1 m c := by
  refine (W2_arr m ρ c 3).trans ((final0 (V1 m ρ) c).trans ?_)
  show mmArr (W1 m ρ c (Proc.devRef .tc main_arg0)) (W1 m ρ c (Proc.devRef .tc main_v15)) (W1 m ρ c (Proc.devRef .tc main_v12)) = _
  rw [w1_arg0, w1_v15, w1_v12]

theorem w2_v3 : W2 m ρ c (Proc.devRef .tc main_v3) = srcV m c :=
  (W2_of_ne m ρ c main_v3 (by decide)).trans (w1_v3 m ρ c)

theorem w2_v6 : W2 m ρ c (Proc.devRef .tc main_v6) = dstV m c :=
  (W2_of_ne m ρ c main_v6 (by decide)).trans (w1_v6 m ρ c)

theorem w2_arg2 : W2 m ρ c (Proc.devRef .tc main_arg2) = m ((c : Thread nD τ).loc main_arg2) :=
  (W2_of_ne m ρ c main_arg2 (by decide)).trans (w1_arg2 m ρ c)

theorem w2_arg3 : W2 m ρ c (Proc.devRef .tc main_arg3) = m ((c : Thread nD τ).loc main_arg3) :=
  (W2_of_ne m ρ c main_arg3 (by decide)).trans (w1_arg3 m ρ c)

theorem w2_v12 : W2 m ρ c (Proc.devRef .tc main_v12) = dinvC m c :=
  ((W2_arr m ρ c 2).trans (((dat0 (V1 m ρ) c).arrAt_in 2 rfl _).trans (A_eq0 (V1 m ρ) c 2))).trans
    (w1_v12 m ρ c)

/-! ## After the second host stretch -/

theorem w3_v27 : W3 m ρ c (Proc.devRef .tc main_v27) = agg m c (h1 m c) := by
  show StableHlo.after hostOps1 (W2 m ρ c) (Proc.devRef .tc main_v27) = _
  after_results
  rw [w2_v16, w2_v3, w2_v6]
  rfl

theorem w3_v30 : W3 m ρ c (Proc.devRef .tc main_v30) = bK0 m c := by
  show StableHlo.after hostOps1 (W2 m ρ c) (Proc.devRef .tc main_v30) = _
  after_results
  rw [w2_arg3]
  rfl

theorem w3_v12 : W3 m ρ c (Proc.devRef .tc main_v12) = dinvC m c := by
  show StableHlo.after hostOps1 (W2 m ρ c) (Proc.devRef .tc main_v12) = _
  after_results
  exact w2_v12 m ρ c

theorem w3_v3 : W3 m ρ c (Proc.devRef .tc main_v3) = srcV m c := by
  show StableHlo.after hostOps1 (W2 m ρ c) (Proc.devRef .tc main_v3) = _
  after_results
  exact w2_v3 m ρ c

theorem w3_v6 : W3 m ρ c (Proc.devRef .tc main_v6) = dstV m c := by
  show StableHlo.after hostOps1 (W2 m ρ c) (Proc.devRef .tc main_v6) = _
  after_results
  exact w2_v6 m ρ c

theorem w3_arg2 : W3 m ρ c (Proc.devRef .tc main_arg2) = m ((c : Thread nD τ).loc main_arg2) := by
  show StableHlo.after hostOps1 (W2 m ρ c) (Proc.devRef .tc main_arg2) = _
  after_results
  exact w2_arg2 m ρ c

theorem w3_arg3 : W3 m ρ c (Proc.devRef .tc main_arg3) = m ((c : Thread nD τ).loc main_arg3) := by
  show StableHlo.after hostOps1 (W2 m ρ c) (Proc.devRef .tc main_arg3) = _
  after_results
  exact w2_arg3 m ρ c

/-! ## After the first rectifier launch -/

theorem w4_v31 : W4 m ρ c (Proc.devRef .tc main_v31) = x1 m c := by
  refine (W4_arr m ρ c 3).trans ((final1 (V3 m ρ) c).trans ?_)
  show brArr (W3 m ρ c (Proc.devRef .tc main_v27)) (W3 m ρ c (Proc.devRef .tc main_v30)) (W3 m ρ c (Proc.devRef .tc main_v12)) = _
  rw [w3_v27, w3_v30, w3_v12]

theorem w4_v3 : W4 m ρ c (Proc.devRef .tc main_v3) = srcV m c :=
  (W4_of_ne m ρ c main_v3 (by decide)).trans (w3_v3 m ρ c)

theorem w4_v6 : W4 m ρ c (Proc.devRef .tc main_v6) = dstV m c :=
  (W4_of_ne m ρ c main_v6 (by decide)).trans (w3_v6 m ρ c)

theorem w4_arg2 : W4 m ρ c (Proc.devRef .tc main_arg2) = m ((c : Thread nD τ).loc main_arg2) :=
  (W4_of_ne m ρ c main_arg2 (by decide)).trans (w3_arg2 m ρ c)

theorem w4_arg3 : W4 m ρ c (Proc.devRef .tc main_arg3) = m ((c : Thread nD τ).loc main_arg3) :=
  (W4_of_ne m ρ c main_arg3 (by decide)).trans (w3_arg3 m ρ c)

theorem w4_v12 : W4 m ρ c (Proc.devRef .tc main_v12) = dinvC m c :=
  ((W4_arr m ρ c 2).trans (((dat1 (V3 m ρ) c).arrAt_in 2 rfl _).trans (A_eq1 (V3 m ρ) c 2))).trans
    (w3_v12 m ρ c)

/-! ## After the third host stretch -/

theorem w5_v34 : W5 m ρ c (Proc.devRef .tc main_v34) = wK1 m c := by
  show StableHlo.after hostOps2 (W4 m ρ c) (Proc.devRef .tc main_v34) = _
  after_results
  rw [w4_arg2]
  rfl

theorem w5_v31 : W5 m ρ c (Proc.devRef .tc main_v31) = x1 m c := by
  show StableHlo.after hostOps2 (W4 m ρ c) (Proc.devRef .tc main_v31) = _
  after_results
  exact w4_v31 m ρ c

theorem w5_v12 : W5 m ρ c (Proc.devRef .tc main_v12) = dinvC m c := by
  show StableHlo.after hostOps2 (W4 m ρ c) (Proc.devRef .tc main_v12) = _
  after_results
  exact w4_v12 m ρ c

theorem w5_v3 : W5 m ρ c (Proc.devRef .tc main_v3) = srcV m c := by
  show StableHlo.after hostOps2 (W4 m ρ c) (Proc.devRef .tc main_v3) = _
  after_results
  exact w4_v3 m ρ c

theorem w5_v6 : W5 m ρ c (Proc.devRef .tc main_v6) = dstV m c := by
  show StableHlo.after hostOps2 (W4 m ρ c) (Proc.devRef .tc main_v6) = _
  after_results
  exact w4_v6 m ρ c

theorem w5_arg3 : W5 m ρ c (Proc.devRef .tc main_arg3) = m ((c : Thread nD τ).loc main_arg3) := by
  show StableHlo.after hostOps2 (W4 m ρ c) (Proc.devRef .tc main_arg3) = _
  after_results
  exact w4_arg3 m ρ c

/-! ## After the second product launch -/

theorem w6_v35 : W6 m ρ c (Proc.devRef .tc main_v35) = h2 m c := by
  refine (W6_arr m ρ c 3).trans ((final2 (V5 m ρ) c).trans ?_)
  show mmArr (W5 m ρ c (Proc.devRef .tc main_v31)) (W5 m ρ c (Proc.devRef .tc main_v34)) (W5 m ρ c (Proc.devRef .tc main_v12)) = _
  rw [w5_v31, w5_v34, w5_v12]

theorem w6_v3 : W6 m ρ c (Proc.devRef .tc main_v3) = srcV m c :=
  (W6_of_ne m ρ c main_v3 (by decide)).trans (w5_v3 m ρ c)

theorem w6_v6 : W6 m ρ c (Proc.devRef .tc main_v6) = dstV m c :=
  (W6_of_ne m ρ c main_v6 (by decide)).trans (w5_v6 m ρ c)

theorem w6_arg3 : W6 m ρ c (Proc.devRef .tc main_arg3) = m ((c : Thread nD τ).loc main_arg3) :=
  (W6_of_ne m ρ c main_arg3 (by decide)).trans (w5_arg3 m ρ c)

theorem w6_v12 : W6 m ρ c (Proc.devRef .tc main_v12) = dinvC m c :=
  ((W6_arr m ρ c 2).trans (((dat2 (V5 m ρ) c).arrAt_in 2 rfl _).trans (A_eq2 (V5 m ρ) c 2))).trans
    (w5_v12 m ρ c)

/-! ## After the fourth host stretch -/

theorem w7_v46 : W7 m ρ c (Proc.devRef .tc main_v46) = agg m c (h2 m c) := by
  show StableHlo.after hostOps3 (W6 m ρ c) (Proc.devRef .tc main_v46) = _
  after_results
  rw [w6_v35, w6_v3, w6_v6]
  rfl

theorem w7_v49 : W7 m ρ c (Proc.devRef .tc main_v49) = bK1 m c := by
  show StableHlo.after hostOps3 (W6 m ρ c) (Proc.devRef .tc main_v49) = _
  after_results
  rw [w6_arg3]
  rfl

theorem w7_v12 : W7 m ρ c (Proc.devRef .tc main_v12) = dinvC m c := by
  show StableHlo.after hostOps3 (W6 m ρ c) (Proc.devRef .tc main_v12) = _
  after_results
  exact w6_v12 m ρ c

/-! ## The result -/

/-- The fourth launch's output array after all its write-backs: the second layer's rectifier array. -/
theorem result_eq : (dat3 (V7 m ρ) c).arrAt 3 cfg3.N = x2 m c := by
  refine (final3 (V7 m ρ) c).trans ?_
  show brArr (W7 m ρ c (Proc.devRef .tc main_v46)) (W7 m ρ c (Proc.devRef .tc main_v49)) (W7 m ρ c (Proc.devRef .tc main_v12)) = _
  rw [w7_v46, w7_v49, w7_v12]

end Cert.KernelIdeal.Chain

end
-- ==== Proof.GcnTwo.lean ====
/-
  Two layers over the graph the second argument describes, in the two arrangements, as functions of the four
  argument arrays; and their equality.

  Everything the layers use is computed from the arguments: the start and end numbers are the two rows of the edge list
  followed by one self-loop per node, the columns, the nonnegative numbers and the node factors come from those, the
  weights and biases are slices of the third and fourth arguments.  For an edge that ends at node `n` the row its end
  number selects is `n`, and the factor of `n` is the reciprocal square root of the number of edges ending there: the two
  hypotheses under which the arrangements agree, layer by layer, whatever the features are.
-/
import proofs.«128690_j43903155699851_2_alg».proof.Proof.GcnHost

noncomputable section

namespace Cert.Gcn

open Idealize.ShloMosaic Idealize.ShloMosaic.ValueIdx Cert.Lib.Rows

section TwoLayers

variable (sE0 : T2E.Slices ![0, 0] T1E) (sE1 : T2E.Slices ![1, 0] T1E) (hcE : T1E.ShapeCasts TE0)
  (hcat : Shape.Concatenates [TE0, TN] TE 0)
  (h1 : TE.BroadcastsInDim TE1 (![0] : Fin 1 → Fin TE1.rank)) (h0 : T0.BroadcastsInDim TE (![] : Fin 0 → Fin TE.rank))
  (hN : T0.BroadcastsInDim TN (![] : Fin 0 → Fin TN.rank)) (wfN : ScatterDims.WF TN TE1 TE [] [0] [0] 1)
  (sW0 : T2DD.Slices ![0, 0, 0] T1DD) (sW1 : T2DD.Slices ![1, 0, 0] T1DD) (hcW : T1DD.ShapeCasts TDD)
  (sB0 : T2D.Slices ![0, 0] T1D) (sB1 : T2D.Slices ![1, 0] T1D) (hcB : T1D.ShapeCasts TD)
  (a0 : TND.Idx → EReal) (a1 : IVec T2E 32) (a2 : T2DD.Idx → EReal) (a3 : T2D.Idx → EReal)

/-- The column of end numbers; the columns of start and of end numbers made nonnegative; the node factors. -/
def gDstC : IVec TE1 32 := colOf h1 (edgeCol 1 sE1 hcE hcat a1)
def gSrcC : IVec TE1 32 := colOf h1 (wrapV h0 (edgeCol 0 sE0 hcE hcat a1))
def gDstwC : IVec TE1 32 := colOf h1 (wrapV h0 (edgeCol 1 sE1 hcE hcat a1))
def gDinv (n : Fin 50000) : EReal := degInv hN h0 wfN (gDstC sE1 hcE hcat h1 a1) (ix1 n)

/-- Two layers, rows scaled before the sums and the sums after. -/
def twoHopsK : TND.Idx → EReal :=
  hopK (endsAt (gDstC sE1 hcE hcat h1 a1)) (rowAt (gSrcC sE0 hcE hcat h1 h0 a1)) (gDinv sE1 hcE hcat h1 h0 hN wfN a1)
    (hopK (endsAt (gDstC sE1 hcE hcat h1 a1)) (rowAt (gSrcC sE0 hcE hcat h1 h0 a1)) (gDinv sE1 hcE hcat h1 h0 hN wfN a1)
      a0 (weightOf 0 sW0 hcW a2) (fun q => biasOf 0 sB0 hcB a3 (ix1 q)))
    (weightOf 1 sW1 hcW a2) (fun q => biasOf 1 sB1 hcB a3 (ix1 q))

/-- Two layers, every edge's message scaled by the product of its end nodes' factors. -/
def twoHopsR : TND.Idx → EReal :=
  hopR (endsAt (gDstC sE1 hcE hcat h1 a1)) (rowAt (gSrcC sE0 hcE hcat h1 h0 a1)) (rowAt (gDstwC sE1 hcE hcat h1 h0 a1))
      (gDinv sE1 hcE hcat h1 h0 hN wfN a1)
    (hopR (endsAt (gDstC sE1 hcE hcat h1 a1)) (rowAt (gSrcC sE0 hcE hcat h1 h0 a1)) (rowAt (gDstwC sE1 hcE hcat h1 h0 a1))
        (gDinv sE1 hcE hcat h1 h0 hN wfN a1)
      a0 (weightOf 0 sW0 hcW a2) (fun q => biasOf 0 sB0 hcB a3 (ix1 q)))
    (weightOf 1 sW1 hcW a2) (fun q => biasOf 1 sB1 hcB a3 (ix1 q))

/-- THE TWO PROGRAMS' VALUES AGREE, for any argument arrays. -/
theorem twoHopsK_eq_twoHopsR :
    twoHopsK sE0 sE1 hcE hcat h1 h0 hN wfN sW0 sW1 hcW sB0 sB1 hcB a0 a1 a2 a3
      = twoHopsR sE0 sE1 hcE hcat h1 h0 hN wfN sW0 sW1 hcW sB0 sB1 hcB a0 a1 a2 a3 := by
  have hdr : ∀ n e, e ∈ endsAt (gDstC sE1 hcE hcat h1 a1) n → rowAt (gDstwC sE1 hcE hcat h1 h0 a1) e = n :=
    fun n e he => rowAt_wrap_of_endsAt h1 h0 (edgeCol 1 sE1 hcE hcat a1) n e he
  have hdv : ∀ n, gDinv sE1 hcE hcat h1 h0 hN wfN a1 n
      = Ideal.rsqrt (zw + ∑ _e ∈ endsAt (gDstC sE1 hcE hcat h1 a1) n, ow) :=
    fun n => degInv_apply hN h0 wfN (gDstC sE1 hcE hcat h1 a1) n
  have key := hopK_eq_hopR (endsAt (gDstC sE1 hcE hcat h1 a1)) (rowAt (gSrcC sE0 hcE hcat h1 h0 a1))
    (rowAt (gDstwC sE1 hcE hcat h1 h0 a1)) (gDinv sE1 hcE hcat h1 h0 hN wfN a1) hdr hdv
  unfold twoHopsK twoHopsR
  rw [key, key]

end TwoLayers

end Cert.Gcn

end
-- ==== Proof.KLayers.lean ====
/-
  The kernel's result array as two layers of the pre-scaled arrangement over the graph.

  One layer of the kernel is a product launch, the host's gather and accumulation, and a rectifier launch.  Read at an
  entry (n, q): the rectifier takes the factor of node `n` times the accumulated sum plus the bias; the sum runs over the
  edges ending at `n` of the product array's row at the edge's start node; and that row is `x · w` scaled by the start node's
  factor.  That is the arrangement that scales rows before the sum and the sum after it.  The column the launches read
  holds the node factors, the bias row the bias vector, and the weights in the narrower float format are the weights.
-/
import proofs.«128690_j43903155699851_2_alg».proof.Proof.KChain
import proofs.«128690_j43903155699851_2_alg».proof.Proof.KRun
import proofs.«128690_j43903155699851_2_alg».proof.Proof.GcnTwo

set_option maxRecDepth 16384

noncomputable section

namespace Cert.KernelIdeal.Layers

open Cert.KernelIdeal Cert.KernelIdeal.Gen Cert.KernelIdeal.Launches Cert.KernelIdeal.Chain Cert.Gcn
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The column the launches read holds, at row `n`, node `n`'s factor. -/
theorem dinvC_apply (n : Fin 50000) : dinvC m c (ix2 n (0 : Fin 1)) = dinvV m c (ix1 n) :=
  shapeCast_apply (dinvV m c) shapeCasts_S50000_S50000x1 (ix2 n (0 : Fin 1)) (ix1 n)
    (by rw [Shape.rowMajor_val_one, Shape.rowMajor_val_two]; show n.val = n.val * 1 + 0; omega)

/-- ONE LAYER: a product launch, the gather and accumulation, a rectifier launch. -/
theorem layer_eq (X : S50000x128.Idx → EReal) (W : S128x128.Idx → EReal) (B : S1x128.Idx → EReal) :
    brArr (agg m c (mmArr X W (dinvC m c))) B (dinvC m c)
      = hopK (endsAt (dstC m c)) (rowAt (srcC m c)) (fun n => dinvV m c (ix1 n)) X W (fun q => B (ix2 (0 : Fin 1) q)) := by
  funext i
  obtain ⟨n, q, rfl⟩ : ∃ (n : Fin 50000) (q : Fin 128), i = ix2 n q := ⟨i 0, i 1, eq_ix2 i⟩
  show brAt (aggK bcast_S_S50000x128 scatter_S50000x128_S850000x1_S850000x128_1_0_0_1_wf
      gather_S50000x128_S850000x1_S850000x128_1_0_n_n_0_1_1128_wf bitsLt_bf16_f32 (dstC m c) (srcC m c) (mmArr X W (dinvC m c)))
      B (dinvC m c) n q
    = hopKAt (endsAt (dstC m c)) (rowAt (srcC m c)) (fun n => dinvV m c (ix1 n)) X W (fun q => B (ix2 (0 : Fin 1) q)) n q
  unfold brAt hopKAt
  rw [aggK_apply, dinvC_apply]
  refine congrArg₂ max (congrArg (· + B (ix2 (0 : Fin 1) q)) (congrArg (dinvV m c (ix1 n) * ·)
    (congrArg₂ (· + ·) rfl (Finset.sum_congr rfl fun e _ => ?_)))) rfl
  show mmAt X W (dinvC m c) (rowAt (srcC m c) e) q = xw X W (rowAt (srcC m c) e) q * dinvV m c (ix1 (rowAt (srcC m c) e))
  unfold mmAt xw
  rw [dinvC_apply]

/-- The bias row holds the bias vector. -/
theorem bK0_apply (q : Fin 128) : bK0 m c (ix2 (0 : Fin 1) q)
    = biasOf 0 slices_S2x128_S1x128_0_0 shapeCasts_S1x128_S128 (m ((c : Thread nD τ).loc main_arg3)) (ix1 q) :=
  Cert.LibBiasRows.row_of_vector _ shapeCasts_S128_S1x128 q
theorem bK1_apply (q : Fin 128) : bK1 m c (ix2 (0 : Fin 1) q)
    = biasOf 1 slices_S2x128_S1x128_1_0 shapeCasts_S1x128_S128 (m ((c : Thread nD τ).loc main_arg3)) (ix1 q) :=
  Cert.LibBiasRows.row_of_vector _ shapeCasts_S128_S1x128 q

/-- THE KERNEL'S RESULT: two layers of the pre-scaled arrangement. -/
theorem result_eq_hops :
    (dat3 (V7 m ρ) c).arrAt 3 cfg3.N
      = hopK (endsAt (dstC m c)) (rowAt (srcC m c)) (fun n => dinvV m c (ix1 n))
          (hopK (endsAt (dstC m c)) (rowAt (srcC m c)) (fun n => dinvV m c (ix1 n))
            (m ((c : Thread nD τ).loc main_arg0))
            (weightOf 0 slices_S2x128x128_S1x128x128_0_0_0 shapeCasts_S1x128x128_S128x128 (m ((c : Thread nD τ).loc main_arg2)))
            (fun q => biasOf 0 slices_S2x128_S1x128_0_0 shapeCasts_S1x128_S128 (m ((c : Thread nD τ).loc main_arg3)) (ix1 q)))
          (weightOf 1 slices_S2x128x128_S1x128x128_1_0_0 shapeCasts_S1x128x128_S128x128 (m ((c : Thread nD τ).loc main_arg2)))
          (fun q => biasOf 1 slices_S2x128_S1x128_1_0 shapeCasts_S1x128_S128 (m ((c : Thread nD τ).loc main_arg3)) (ix1 q)) := by
  rw [result_eq]
  show brArr (agg m c (mmArr (brArr (agg m c (mmArr (m ((c : Thread nD τ).loc main_arg0)) (wK0 m c) (dinvC m c))) (bK0 m c) (dinvC m c))
      (wK1 m c) (dinvC m c))) (bK1 m c) (dinvC m c) = _
  rw [layer_eq m c (m ((c : Thread nD τ).loc main_arg0)) (wK0 m c) (bK0 m c), layer_eq]
  rw [funext (bK0_apply m c), funext (bK1_apply m c)]
  rfl

/-- The kernel's result as a function of its four argument arrays. -/
theorem result_eq_twoHops :
    (dat3 (V7 m ρ) c).arrAt 3 cfg3.N
      = twoHopsK slices_S2x800000_S1x800000_0_0 slices_S2x800000_S1x800000_1_0 shapeCasts_S1x800000_S800000
          concatenates_S800000_S50000_S850000_d0 bcast_S850000_S850000x1_0 bcast_S_S850000 bcast_S_S50000
          scatter_S50000_S850000x1_S850000_n_0_0_1_wf slices_S2x128x128_S1x128x128_0_0_0 slices_S2x128x128_S1x128x128_1_0_0
          shapeCasts_S1x128x128_S128x128 slices_S2x128_S1x128_0_0 slices_S2x128_S1x128_1_0 shapeCasts_S1x128_S128
          (m ((c : Thread nD τ).loc main_arg0)) (m ((c : Thread nD τ).loc main_arg1))
          (m ((c : Thread nD τ).loc main_arg2)) (m ((c : Thread nD τ).loc main_arg3)) :=
  result_eq_hops m ρ c

end Cert.KernelIdeal.Layers

end
-- ==== Proof.RLayers.lean ====
/-
  The reference's result array as two layers of the edge-weighted arrangement.

  The reference's result is a term of host operations of the arguments.  Read as it is spelt it is the reference's layer
  applied twice: the same two columns of row numbers, the same node factors and the same graph feed both layers; the first
  layer's features are the first argument, its weights and bias the first slices of the third and fourth arguments; the
  second layer's features are the first layer's result.  Each layer, read at an entry, is the arrangement that scales
  every edge's message by the product of its two end nodes' factors.
-/
import proofs.«128690_j43903155699851_2_alg».proof.Proof.Gen.ReferenceIdeal.Run
import proofs.«128690_j43903155699851_2_alg».proof.Proof.GcnHost
import proofs.«128690_j43903155699851_2_alg».proof.Proof.GcnTwo

set_option maxRecDepth 16384

noncomputable section

namespace Cert.ReferenceIdeal.Layers

open Cert.ReferenceIdeal Cert.ReferenceIdeal.Gen Cert.ReferenceIdeal.Value Cert.Gcn
open Idealize.ShloMosaic Idealize.ShloMosaic.TcCoe Idealize.ShloMosaic.ValueIdx Idealize.SL.Sem

variable (m : (ℓ : Loc nD τ sig) → Buf (Elt Ideal) ℓ) (c : Dev nD)

/-- The start numbers and the end numbers of the edges, self-loops included. -/
abbrev srcV : IVec S850000 32 :=
  edgeCol 0 slices_S2x800000_S1x800000_0_0 shapeCasts_S1x800000_S800000 concatenates_S800000_S50000_S850000_d0
    (m ((c.tc : Thread nD τ).loc main_arg1))
abbrev dstV : IVec S850000 32 :=
  edgeCol 1 slices_S2x800000_S1x800000_1_0 shapeCasts_S1x800000_S800000 concatenates_S800000_S50000_S850000_d0
    (m ((c.tc : Thread nD τ).loc main_arg1))
/-- The column of end numbers, and the columns of start and end numbers made nonnegative. -/
abbrev dstC : IVec S850000x1 32 := colOf bcast_S850000_S850000x1_0 (dstV m c)
abbrev srcC : IVec S850000x1 32 := colOf bcast_S850000_S850000x1_0 (wrapV bcast_S_S850000 (srcV m c))
abbrev dstwC : IVec S850000x1 32 := colOf bcast_S850000_S850000x1_0 (wrapV bcast_S_S850000 (dstV m c))
/-- The node factors. -/
abbrev dinvV : S50000.Idx → EReal :=
  degInv bcast_S_S50000 bcast_S_S850000 scatter_S50000_S850000x1_S850000_n_0_0_1_wf (dstC m c)
/-- The weights and the biases of the two layers. -/
abbrev wR0 : S128x128.Idx → EReal :=
  weightOf 0 slices_S2x128x128_S1x128x128_0_0_0 shapeCasts_S1x128x128_S128x128 (m ((c.tc : Thread nD τ).loc main_arg2))
abbrev wR1 : S128x128.Idx → EReal :=
  weightOf 1 slices_S2x128x128_S1x128x128_1_0_0 shapeCasts_S1x128x128_S128x128 (m ((c.tc : Thread nD τ).loc main_arg2))
abbrev bR0 : S128.Idx → EReal :=
  biasOf 0 slices_S2x128_S1x128_0_0 shapeCasts_S1x128_S128 (m ((c.tc : Thread nD τ).loc main_arg3))
abbrev bR1 : S128.Idx → EReal :=
  biasOf 1 slices_S2x128_S1x128_1_0 shapeCasts_S1x128_S128 (m ((c.tc : Thread nD τ).loc main_arg3))

/-- One layer as the reference spells it. -/
abbrev layer (x : S50000x128.Idx → EReal) (w : S128x128.Idx → EReal) (b : S128.Idx → EReal) : S50000x128.Idx → EReal :=
  refLayer bcast_S_S50000x128 scatter_S50000x128_S850000x1_S850000x128_1_0_0_1_wf
    gather_S50000x128_S850000x1_S850000x128_1_0_n_n_0_1_1128_wf gather_S50000_S850000x1_S850000_n_0_n_n_0_1_1_wf
    bcast_S850000_S850000x1_0 bcast_S850000x1_S850000x128_0_1 bcast_S1x128_S50000x128_0_1 bcast_S128_S1x128_1
    (dinvV m c) (dstC m c) (srcC m c) (dstwC m c) x w b

/-- The reference's result is its layer applied twice. -/
theorem res_eq_layers :
    res_main_v69 (F := Ideal) m c
      = layer m c (layer m c (m ((c.tc : Thread nD τ).loc main_arg0)) (wR0 m c) (bR0 m c)) (wR1 m c) (bR1 m c) := by
  unfold res_main_v69
  rfl

/-- The reference's result as two layers of the edge-weighted arrangement over the graph the two columns describe. -/
theorem res_eq_hops :
    res_main_v69 (F := Ideal) m c
      = hopR (endsAt (dstC m c)) (rowAt (srcC m c)) (rowAt (dstwC m c)) (fun n => dinvV m c (ix1 n))
          (hopR (endsAt (dstC m c)) (rowAt (srcC m c)) (rowAt (dstwC m c)) (fun n => dinvV m c (ix1 n))
            (m ((c.tc : Thread nD τ).loc main_arg0)) (wR0 m c) (fun q => bR0 m c (ix1 q)))
          (wR1 m c) (fun q => bR1 m c (ix1 q)) := by
  rw [res_eq_layers]
  unfold layer
  rw [refLayer_eq, refLayer_eq]

/-- The reference's result as a function of its four argument arrays. -/
theorem res_eq_twoHops :
    res_main_v69 (F := Ideal) m c
      = twoHopsR slices_S2x800000_S1x800000_0_0 slices_S2x800000_S1x800000_1_0 shapeCasts_S1x800000_S800000
          concatenates_S800000_S50000_S850000_d0 bcast_S850000_S850000x1_0 bcast_S_S850000 bcast_S_S50000
          scatter_S50000_S850000x1_S850000_n_0_0_1_wf slices_S2x128x128_S1x128x128_0_0_0 slices_S2x128x128_S1x128x128_1_0_0
          shapeCasts_S1x128x128_S128x128 slices_S2x128_S1x128_0_0 slices_S2x128_S1x128_1_0 shapeCasts_S1x128_S128
          (m ((c.tc : Thread nD τ).loc main_arg0)) (m ((c.tc : Thread nD τ).loc main_arg1))
          (m ((c.tc : Thread nD τ).loc main_arg2)) (m ((c.tc : Thread nD τ).loc main_arg3)) :=
  res_eq_hops m c

end Cert.ReferenceIdeal.Layers

end
-- ==== Proof.lean ====
/-
  The certificate of a two-layer graph convolution kernel against its reference.

  Both programs compute, for node features `x : [50000, 128]`, an edge list `[2, 800000]` (self-loops added), two weight
  matrices and two bias vectors, two layers of
  `x ↦ max ((∑ over the edges e ending at n of (x · w) (start e, ·) * (f (start e) * f n)) + b) 0`,
  where `f n` is the reciprocal square root of the number of edges ending at `n`.  The reference gathers the two factors per
  edge and scales every message; the kernel scales the rows of `x · w` by `f` inside its product launch, lets the host
  gather and accumulate, and scales the sums by `f` inside its rectifier launch.  On the extended reals a change of float
  format is the identity and a sum may be taken in any order, so the only law between the two is that the end node's
  factor — nonnegative and not `⊤` whenever some edge ends there — distributes over the sum of the messages; when no edge
  ends at a node both sums are empty.  No finiteness of the inputs is used.

  The frames are the generated ones; the idealization rewrote nothing; the kernel's run names its result as the fourth
  launch's output array, which the launches' whole-array functions and the host stretches between them turn into two
  layers of the pre-scaled arrangement; the reference's generated run names its result as a term that is its layer applied
  twice.
-/
import proofs.«128690_j43903155699851_2_alg».proof.Defs
import proofs.«128690_j43903155699851_2_alg».proof.Proof.Gen.Kernel
import proofs.«128690_j43903155699851_2_alg».proof.Proof.Gen.Kernel.Frame
import proofs.«128690_j43903155699851_2_alg».proof.Proof.Gen.KernelIdeal
import proofs.«128690_j43903155699851_2_alg».proof.Proof.Gen.KernelIdeal.Frame
import proofs.«128690_j43903155699851_2_alg».proof.Proof.Gen.ReferenceIdeal
import proofs.«128690_j43903155699851_2_alg».proof.Proof.Gen.ReferenceIdeal.Run
import proofs.«128690_j43903155699851_2_alg».proof.Proof.Gen.Pre_finite_inputs
import proofs.«128690_j43903155699851_2_alg».proof.Proof.KRun
import proofs.«128690_j43903155699851_2_alg».proof.Proof.KLayers
import proofs.«128690_j43903155699851_2_alg».proof.Proof.RLayers
import proofs.«128690_j43903155699851_2_alg».proof.Proof.GcnTwo
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs run and end with equal results: two layers in the pre-scaled arrangement against two layers in the
    edge-weighted one, of arguments that agree. -/
theorem algebraic : Cert.algebraic_KernelIdeal_ReferenceIdeal := by
  intro m ρ m' ρ' _ hagree
  refine ⟨_, Cert.KernelIdeal.RunValue.run_out m ρ, ?_⟩
  refine (θ_run Cert.ReferenceIdeal.defs _ _).mono (fun _ h c => ⟨(h c).1.trans ?_, (h c).2⟩)
    (Cert.ReferenceIdeal.Value.run (F := Ideal) m' ρ')
  rw [Cert.KernelIdeal.Layers.result_eq_twoHops m ρ c, Cert.ReferenceIdeal.Layers.res_eq_twoHops m' c,
    (hagree c).1, (hagree c).2.1, (hagree c).2.2.1, (hagree c).2.2.2]
  exact (Cert.Gcn.twoHopsK_eq_twoHopsR _ _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
